-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2 : Shape := ⟨3, ![32, 2048, 2]⟩
abbrev S_ : Shape := ⟨0, ![]⟩

class Facts : Prop where
  bcast_S_S32x2048x2 : S_.BroadcastsInDim S32x2048x2 (![] : Fin 0 → Fin S32x2048x2.rank)
  reducesTo_S32x2048x2_S_d0_1_2 : S32x2048x2.ReducesTo [0, 1, 2] S_
  h_S_ : 0 < S_.numel

variable [Facts]

def fn {F : FTy → Type} [FloatOps F] (main_arg0 : FVec F S32x2048x2 .f32) (main_arg1 : FVec F S32x2048x2 .f32) : IVec S_ 1 :=
  let main_v0 : FVec F S32x2048x2 .f32 := Host.absf main_arg0
  let main_cst : FVec F S_ .f32 := constant S_ .f32 0x7F800000#32
  let main_v1 : FVec F S32x2048x2 .f32 := broadcastInDim S32x2048x2 ![] bcast_S_S32x2048x2 main_cst
  let main_v2 : IVec S32x2048x2 1 := cmpf .olt main_v0 main_v1
  let main_c : IVec S_ 1 := constantI S_ 1 1#1
  let main_v3 : IVec S_ 1 := (fun x v => Host.reduce IntOp.andi x v reducesTo_S32x2048x2_S_d0_1_2 h_S_) main_v2 main_c
  let main_v4 : FVec F S32x2048x2 .f32 := Host.absf main_arg1
  let main_cst_0 : FVec F S_ .f32 := constant S_ .f32 0x7F800000#32
  let main_v5 : FVec F S32x2048x2 .f32 := broadcastInDim S32x2048x2 ![] bcast_S_S32x2048x2 main_cst_0
  let main_v6 : IVec S32x2048x2 1 := cmpf .olt main_v4 main_v5
  let main_c_1 : IVec S_ 1 := constantI S_ 1 1#1
  let main_v7 : IVec S_ 1 := (fun x v => Host.reduce IntOp.andi x v reducesTo_S32x2048x2_S_d0_1_2 h_S_) main_v6 main_c_1
  let main_v8 : IVec S_ 1 := andi main_v3 main_v7
  main_v8
-- ==== Kernel.lean ====
abbrev S32x2048x2 : Shape := ⟨3, ![32, 2048, 2]⟩
abbrev S32x2048x1 : Shape := ⟨3, ![32, 2048, 1]⟩
abbrev S32x2048 : Shape := ⟨2, ![32, 2048]⟩
abbrev S16x32x2048 : Shape := ⟨3, ![16, 32, 2048]⟩
abbrev S32x128x1 : Shape := ⟨3, ![32, 128, 1]⟩
abbrev S32x512 : Shape := ⟨2, ![32, 512]⟩
abbrev S32x128 : Shape := ⟨2, ![32, 128]⟩
abbrev S1x32x512 : Shape := ⟨3, ![1, 32, 512]⟩
abbrev S32x1x512 : Shape := ⟨3, ![32, 1, 512]⟩
abbrev S32x128x512 : Shape := ⟨3, ![32, 128, 512]⟩
abbrev S_ : Shape := ⟨0, ![]⟩
abbrev S32 : Shape := ⟨1, ![32]⟩

abbrev nBuf : Space → Nat
  | .hbm => 36
  | .vmem => 13
  | .smem => 0
  | _ => 0

abbrev bufTy : (tb : Table) → Fin (tcTables nBuf tb) → BufTy
  | .hbm, ⟨0, _⟩ => ⟨S32x2048x2, .f32⟩
  | .hbm, ⟨1, _⟩ => ⟨S32x2048x2, .f32⟩
  | .hbm, ⟨2, _⟩ => ⟨S32x2048x1, .f32⟩
  | .hbm, ⟨3, _⟩ => ⟨S32x2048, .f32⟩
  | .hbm, ⟨4, _⟩ => ⟨S32x2048x1, .f32⟩
  | .hbm, ⟨5, _⟩ => ⟨S32x2048, .f32⟩
  | .hbm, ⟨6, _⟩ => ⟨S32x2048x1, .f32⟩
  | .hbm, ⟨7, _⟩ => ⟨S32x2048, .f32⟩
  | .hbm, ⟨8, _⟩ => ⟨S32x2048x1, .f32⟩
  | .hbm, ⟨9, _⟩ => ⟨S32x2048, .f32⟩
  | .hbm, ⟨10, _⟩ => ⟨S32x2048x1, .f32⟩
  | .hbm, ⟨11, _⟩ => ⟨S32x2048x1, .f32⟩
  | .hbm, ⟨12, _⟩ => ⟨S32x2048, .f32⟩
  | .hbm, ⟨13, _⟩ => ⟨S16x32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S32x128x1, .f32⟩
  | .local _ .vmem, ⟨1, _⟩ => ⟨S32x128x1, .f32⟩
  | .local _ .vmem, ⟨2, _⟩ => ⟨S32x128x1, .f32⟩
  | .local _ .vmem, ⟨3, _⟩ => ⟨S32x128x1, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x128, .f32⟩
  | .local _ .vmem, ⟨9, _⟩ => ⟨S32x128, .f32⟩
  | .local _ .vmem, ⟨10, _⟩ => ⟨S1x32x512, .f32⟩
  | .local _ .vmem, ⟨11, _⟩ => ⟨S1x32x512, .f32⟩
  | .local _ .vmem, ⟨12, _⟩ => ⟨S32x128, .f32⟩
  | _, _ => ⟨S32x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_18 : BitVec 32 := 0#32
  let v33 : BitVec 1 := Scalar.cmpi .ne v32 c0_i32_18
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S32x2048x2_S32x2048x1_0_0_0 : S32x2048x2.Slices ![0, 0, 0] S32x2048x1
  shapeCasts_S32x2048x1_S32x2048 : S32x2048x1.ShapeCasts S32x2048
  slices_S32x2048x2_S32x2048x1_0_0_1 : S32x2048x2.Slices ![0, 0, 1] S32x2048x1
  bcast_S32x2048_S32x2048x1_0_1 : S32x2048.BroadcastsInDim S32x2048x1 (![0, 1] : Fin 2 → Fin S32x2048x1.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S32x512_S32x1x512 : S32x512.ShapeCasts S32x1x512
  broadcasts_S32x128x1_S32x128x512 : S32x128x1.Broadcasts S32x128x512
  broadcasts_S32x1x512_S32x128x512 : S32x1x512.Broadcasts S32x128x512
  reduces_S32x128x512_S32x128 : S32x128x512.Reduces [2] S32x128
  reduces_S32x128x512_S32x512 : S32x128x512.Reduces [1] S32x512
  shapeCasts_S32x512_S1x32x512 : S32x512.ShapeCasts S1x32x512
  inb_S1x32x512_S1x32x512_0_0_0 : ∀ a, (![0, 0, 0] : Fin 3 → Nat) a + S1x32x512.size a ≤ S1x32x512.size a
  h_S1x32x512 : 0 < S1x32x512.numel
  reducesTo_S16x32x2048_S32x2048_d0 : S16x32x2048.ReducesTo [0] S32x2048
  h_S_ : 0 < S_.numel
  reducesTo_S32x2048_S32_d1 : S32x2048.ReducesTo [1] S32
  bcast_S_S32 : S_.BroadcastsInDim S32 (![] : Fin 0 → Fin S32.rank)
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x1.size a ≤ S32x2048x1.size a
  hwx0_0 : ∀ i : grid0.Coords, EltTy.bits .f32 = 32 ∨ (Rect.block (s := S32x2048x1) S32x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S32x2048x1.size a
  hwx0_1 : ∀ i : grid0.Coords, EltTy.bits .f32 = 32 ∨ (Rect.block (s := S32x2048x1) S32x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x2048.size a
  hwx0_2 : ∀ i : grid0.Coords, EltTy.bits .f32 = 32 ∨ (Rect.block (s := S32x2048) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x2048.size a
  hwx0_3 : ∀ i : grid0.Coords, EltTy.bits .f32 = 32 ∨ (Rect.block (s := S32x2048) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x2048.size a
  hwx0_4 : ∀ i : grid0.Coords, EltTy.bits .f32 = 32 ∨ (Rect.block (s := S32x2048) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S16x32x2048.size a
  hwx0_5 : ∀ i : grid0.Coords, EltTy.bits .f32 = 32 ∨ (Rect.block (s := S16x32x2048) S1x32x512.size (cc0_transform_5 i) (hinb0_5 i)).WholeWords (EltTy.packing .f32)

variable [Facts₀]

abbrev win0_0 : Pipeline.Window sig grid0 :=
  Pipeline.Window.ofSpec (Memref.whole main_v8) S32x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S32x2048x2 : Shape := ⟨3, ![32, 2048, 2]⟩
abbrev S32x2048x1x2 : Shape := ⟨4, ![32, 2048, 1, 2]⟩
abbrev S32x1x2048x2 : Shape := ⟨4, ![32, 1, 2048, 2]⟩
abbrev S32x2048x2048x2 : Shape := ⟨4, ![32, 2048, 2048, 2]⟩
abbrev S_ : Shape := ⟨0, ![]⟩
abbrev S32x2048x2048 : Shape := ⟨3, ![32, 2048, 2048]⟩
abbrev S32x2048 : Shape := ⟨2, ![32, 2048]⟩
abbrev S32 : Shape := ⟨1, ![32]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x2, .f32⟩
  | .hbm, ⟨1, _⟩ => ⟨S32x2048x2, .f32⟩
  | .hbm, ⟨2, _⟩ => ⟨S32x2048x1x2, .f32⟩
  | .hbm, ⟨3, _⟩ => ⟨S32x1x2048x2, .f32⟩
  | .hbm, ⟨4, _⟩ => ⟨S32x2048x2048x2, .f32⟩
  | .hbm, ⟨5, _⟩ => ⟨S32x2048x2048x2, .f32⟩
  | .hbm, ⟨6, _⟩ => ⟨S32x2048x2048x2, .f32⟩
  | .hbm, ⟨7, _⟩ => ⟨S32x2048x2048x2, .f32⟩
  | .hbm, ⟨8, _⟩ => ⟨S_, .f32⟩
  | .hbm, ⟨9, _⟩ => ⟨S32x2048x2048, .f32⟩
  | .hbm, ⟨10, _⟩ => ⟨S32x2048x2048, .f32⟩
  | .hbm, ⟨11, _⟩ => ⟨S_, .f32⟩
  | .hbm, ⟨12, _⟩ => ⟨S32x2048, .f32⟩
  | .hbm, ⟨13, _⟩ => ⟨S_, .f32⟩
  | .hbm, ⟨14, _⟩ => ⟨S32x2048, .f32⟩
  | .hbm, ⟨15, _⟩ => ⟨S_, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S32x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S32x2048x2_S32x2048x1x2_0_1_3 : S32x2048x2.BroadcastsInDim S32x2048x1x2 (![0, 1, 3] : Fin 3 → Fin S32x2048x1x2.rank)
  bcast_S32x2048x2_S32x1x2048x2_0_2_3 : S32x2048x2.BroadcastsInDim S32x1x2048x2 (![0, 2, 3] : Fin 3 → Fin S32x1x2048x2.rank)
  bcast_S32x2048x1x2_S32x2048x2048x2_0_1_2_3 : S32x2048x1x2.BroadcastsInDim S32x2048x2048x2 (![0, 1, 2, 3] : Fin 4 → Fin S32x2048x2048x2.rank)
  bcast_S32x1x2048x2_S32x2048x2048x2_0_1_2_3 : S32x1x2048x2.BroadcastsInDim S32x2048x2048x2 (![0, 1, 2, 3] : Fin 4 → Fin S32x2048x2048x2.rank)
  reducesTo_S32x2048x2048x2_S32x2048x2048_d3 : S32x2048x2048x2.ReducesTo [3] S32x2048x2048
  h_S_ : 0 < S_.numel
  reducesTo_S32x2048x2048_S32x2048_d2 : S32x2048x2048.ReducesTo [2] S32x2048
  reducesTo_S32x2048x2048_S32x2048_d1 : S32x2048x2048.ReducesTo [1] S32x2048
  reducesTo_S32x2048_S32_d1 : S32x2048.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.KernelPieces.lean ====
/-
  What each control case of the kernel body leaves in its buffers, as the body's pure payload terms.

  At a grid point the body reads its four input blocks whole, and stores whole buffers only: the running
  row minimum into the scratch (at the first lane tile after the scratch was reset to `+∞`, later from what the
  point before left), the column minima of the tile into output 5, and, at the last lane tile, the scratch
  into output 4.  A whole-buffer store leaves its payload whatever was stored before, and a whole-buffer load
  of what a whole-buffer store left reads that payload; so every buffer the case leaves is one payload term
  of the input blocks (and of the scratch's previous contents).  The statements hold at any float instance.
-/
import proofs.«118698_j4939212390980_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a rank-2 and of a rank-3 whole-buffer rectangle. -/
theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## The first lane tile: the scratch is reset to `+∞`, then the tile's row minima are folded in -/

theorem sout_A (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : cond0_0 i) (hc1 : ¬cond0_1 i)
    (x0 x1 : Vec F S32x128x1 .f32) (x2 x3 : Vec F S32x512 .f32) :
    sout0_A_0 c i arg2 harg2 arg3 harg3 arg4 harg4 arg5 harg5 arg6 harg6 arg7 harg7 arg8 harg8 hc0 hc1 x0 x1 x2 x3 = k0_pay3 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x128) hz2, View.readCov_unit_zero (S := S32x128) _ hz2]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

theorem out5_A (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : cond0_0 i) (hc1 : ¬cond0_1 i)
    (x0 x1 : Vec F S32x128x1 .f32) (x2 x3 : Vec F S32x512 .f32) :
    out0_A_5 c i arg2 harg2 arg3 harg3 arg4 harg4 arg5 harg5 arg6 harg6 arg7 harg7 arg8 harg8 hc0 hc1 x0 x1 x2 x3 = k0_pay4 x0 x1 x2 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero (S := S1x32x512) hz3]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

/-! ## A middle lane tile: the tile's row minima are folded into what the point before left -/

theorem sout_B (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : ¬cond0_0 i) (hc1 : ¬cond0_1 i)
    (x0 x1 : Vec F S32x128x1 .f32) (x2 x3 : Vec F S32x512 .f32) (xs0 : Vec F S32x128 .f32) :
    sout0_B_0 c i arg2 harg2 arg3 harg3 arg4 harg4 arg5 harg5 arg6 harg6 arg7 harg7 arg8 harg8 hc0 hc1 x0 x1 x2 x3 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S32x128) hz2]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

theorem out5_B (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : ¬cond0_0 i) (hc1 : ¬cond0_1 i)
    (x0 x1 : Vec F S32x128x1 .f32) (x2 x3 : Vec F S32x512 .f32) (xs0 : Vec F S32x128 .f32) :
    out0_B_5 c i arg2 harg2 arg3 harg3 arg4 harg4 arg5 harg5 arg6 harg6 arg7 harg7 arg8 harg8 hc0 hc1 x0 x1 x2 x3 xs0 = k0_pay4 x0 x1 x2 x3 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S1x32x512) hz3]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

/-! ## The last lane tile: as a middle tile, and the scratch is copied into output 4 -/

theorem out4_C (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : ¬cond0_0 i) (hc1 : cond0_1 i)
    (x0 x1 : Vec F S32x128x1 .f32) (x2 x3 : Vec F S32x512 .f32) (xs0 : Vec F S32x128 .f32) :
    out0_C_4 c i arg2 harg2 arg3 harg3 arg4 harg4 arg5 harg5 arg6 harg6 arg7 harg7 arg8 harg8 hc0 hc1 x0 x1 x2 x3 xs0 = k0_pay3 x0 x1 x2 x3 xs0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S32x128) hz2]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]
  exact View.readCov_unit_zero (S := S32x128) _ hz2 _ _

theorem out5_C (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : ¬cond0_0 i) (hc1 : cond0_1 i)
    (x0 x1 : Vec F S32x128x1 .f32) (x2 x3 : Vec F S32x512 .f32) (xs0 : Vec F S32x128 .f32) :
    out0_C_5 c i arg2 harg2 arg3 harg3 arg4 harg4 arg5 harg5 arg6 harg6 arg7 harg7 arg8 harg8 hc0 hc1 x0 x1 x2 x3 xs0 = k0_pay4 x0 x1 x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S1x32x512) hz3]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

theorem sout_C (c : Dev nD) (i : grid0.Coords) (arg2 : Memref sig .tc .vmem S32x128x1 .f32) (harg2 : arg2.IsWhole) (arg3 : Memref sig .tc .vmem S32x128x1 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S32x128 .f32) (harg8 : arg8.IsWhole) (hc0 : ¬cond0_0 i) (hc1 : cond0_1 i)
    (x0 x1 : Vec F S32x128x1 .f32) (x2 x3 : Vec F S32x512 .f32) (xs0 : Vec F S32x128 .f32) :
    sout0_C_0 c i arg2 harg2 arg3 harg3 arg4 harg4 arg5 harg5 arg6 harg6 arg7 harg7 arg8 harg8 hc0 hc1 x0 x1 x2 x3 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S32x128) hz2]
  simp only [View.readAt_eq_ld, harg2.read_unread, harg3.read_unread, harg4.read_unread, harg5.read_unread, harg8.read_unread,
    View.ld_unit_zero (S := S32x128x1) hz3, View.ld_unit_zero (S := S32x512) hz2, View.ld_unit_zero (S := S32x128) hz2]

end Cert.KernelIdeal.Pieces

end
-- ==== Proof.LibMinDist.lean ====
/- Extended-real algebra joining two spellings of a nearest-neighbour distance: the squared distance
   accumulated coordinate by coordinate against its expansion `|a|² + |b|² - 2 a·b`; the clamped root
   `t ↦ √(max t 0)` taken after a minimum against the minimum of the clamped roots; the mean of a
   family against the halved sum of the means of its two halves; and the float literals involved.
   No program is mentioned here: every statement is over Mathlib's `EReal` and real-valued families. -/
import Idealize.ShloMosaic.PureOps.Ideal
import Idealize.ShloMosaic.PureOps.Ideal.Laws

noncomputable section

namespace MinDist

open Idealize.ShloMosaic

/-! ### Coercion lemmas -/

/-- The coercion `ℝ → EReal` is monotone. -/
theorem coe_mono : Monotone (fun r : ℝ => (r : EReal)) := fun _ _ h => EReal.coe_le_coe_iff.mpr h

/-- The coercion `ℝ → EReal` commutes with `max`. -/
theorem coe_max (x y : ℝ) : ((max x y : ℝ) : EReal) = max (x : EReal) (y : EReal) :=
  coe_mono.map_max

/-- The coercion `ℝ → EReal` commutes with `min`. -/
theorem coe_min (x y : ℝ) : ((min x y : ℝ) : EReal) = min (x : EReal) (y : EReal) :=
  coe_mono.map_min

/-- The coercion `ℝ → EReal` commutes with a finite sum. -/
theorem coe_sum {ι : Type*} (s : Finset ι) (A : ι → ℝ) :
    ∑ i ∈ s, (A i : EReal) = ((∑ i ∈ s, A i : ℝ) : EReal) := by
  classical
  induction s using Finset.induction_on with
  | empty => simp
  | insert a s ha ih => rw [Finset.sum_insert ha, Finset.sum_insert ha, ih, EReal.coe_add]

/-! ### The clamped root -/

/-- The extended square root is monotone: `⊥` and the negatives go to `⊥`, the non-negatives to their
    roots, `⊤` to `⊤`. -/
theorem sqrt_mono : Monotone Ideal.sqrt := by
  intro x y hxy
  induction x using EReal.rec with
  | bot => exact bot_le
  | top =>
    have hy : y = ⊤ := top_le_iff.mp hxy
    rw [hy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The clamped root `t ↦ √(max t 0)` on the extended reals. -/
def rootClamp (t : EReal) : EReal := Ideal.sqrt (max t 0)

/-- The clamped root is monotone: a composite of the monotone maps `max · 0` and `√`. -/
theorem rootClamp_mono : Monotone rootClamp :=
  fun _ _ h => sqrt_mono (max_le_max h le_rfl)

/-- The clamped root fixes `+∞`. -/
theorem rootClamp_top : rootClamp ⊤ = ⊤ := by
  rw [rootClamp, max_eq_left le_top, Ideal.sqrt_top]

/-- On a real `r` the clamped root is the real `√(max r 0)`. -/
theorem rootClamp_coe (r : ℝ) : rootClamp (r : EReal) = ((Real.sqrt (max r 0) : ℝ) : EReal) := by
  rw [rootClamp, ← EReal.coe_zero, ← coe_max, Ideal.sqrt_coe, if_neg (not_lt.mpr (le_max_right r 0))]

/-! ### A monotone map commutes with a minimum over a finite family -/

/-- A monotone map commutes with the minimum of a finite family folded from an initial value:
    `f (min (init, g i₁, …, g iₙ)) = min (f init, f (g i₁), …, f (g iₙ))`. -/
theorem map_fold_min {ι : Type*} (f : EReal → EReal) (hf : Monotone f) (s : Finset ι) (g : ι → EReal) (init : EReal) :
    f (s.fold min init g) = s.fold min (f init) (fun i => f (g i)) := by
  classical
  induction s using Finset.induction_on with
  | empty => rw [Finset.fold_empty, Finset.fold_empty]
  | insert a s ha ih => rw [Finset.fold_insert ha, Finset.fold_insert ha, hf.map_min, ih]

/-- The minimum from `+∞` of a non-empty finite family of reals is a real. -/
theorem fold_min_top_coe {ι : Type*} (s : Finset ι) (hs : s.Nonempty) (g : ι → ℝ) :
    ∃ r : ℝ, s.fold min (⊤ : EReal) (fun i => (g i : EReal)) = (r : EReal) := by
  classical
  induction s using Finset.induction_on with
  | empty => exact absurd hs (by simp)
  | insert a s ha ih =>
    rw [Finset.fold_insert ha]
    rcases s.eq_empty_or_nonempty with he | hne
    · subst he
      exact ⟨g a, by rw [Finset.fold_empty, min_eq_left le_top]⟩
    · obtain ⟨r, hr⟩ := ih hne
      exact ⟨min (g a) r, by rw [hr, coe_min]⟩

/-! ### The squared distance in three coordinates -/

/-- The squared distance accumulated coordinate by coordinate from zero is the real `∑ (a c - b c)²`. -/
theorem sq_accum (a b : Fin 3 → ℝ) :
    (((0 : EReal) + ((a 0 : EReal) - (b 0 : EReal)) * ((a 0 : EReal) - (b 0 : EReal)))
        + ((a 1 : EReal) - (b 1 : EReal)) * ((a 1 : EReal) - (b 1 : EReal)))
        + ((a 2 : EReal) - (b 2 : EReal)) * ((a 2 : EReal) - (b 2 : EReal))
      = ((∑ c : Fin 3, (a c - b c) ^ 2 : ℝ) : EReal) := by
  have h : (∑ c : Fin 3, (a c - b c) ^ 2 : ℝ)
      = ((0 + (a 0 - b 0) * (a 0 - b 0)) + (a 1 - b 1) * (a 1 - b 1)) + (a 2 - b 2) * (a 2 - b 2) := by
    rw [Fin.sum_univ_three]; ring
  rw [h]
  simp only [EReal.coe_add, EReal.coe_mul, EReal.coe_sub, EReal.coe_zero]

/-- The expansion `(|a|² + |b|²) - 2 (a · b)`, each sum taken from zero, is the real `∑ (a c - b c)²`. -/
theorem sq_expand (a b : Fin 3 → ℝ) :
    (((0 : EReal) + ∑ c : Fin 3, (a c : EReal) * (a c : EReal)) + ((0 : EReal) + ∑ c : Fin 3, (b c : EReal) * (b c : EReal)))
        - ((2 : ℝ) : EReal) * ∑ c : Fin 3, (a c : EReal) * (b c : EReal)
      = ((∑ c : Fin 3, (a c - b c) ^ 2 : ℝ) : EReal) := by
  have h : (∑ c : Fin 3, (a c - b c) ^ 2 : ℝ)
      = ((0 + (a 0 * a 0 + a 1 * a 1 + a 2 * a 2)) + (0 + (b 0 * b 0 + b 1 * b 1 + b 2 * b 2)))
          - 2 * (a 0 * b 0 + a 1 * b 1 + a 2 * b 2) := by
    rw [Fin.sum_univ_three]; ring
  rw [h]
  simp only [Fin.sum_univ_three, EReal.coe_add, EReal.coe_mul, EReal.coe_sub, EReal.coe_zero]

/-! ### The mean of a family against the halved sum of the means of its halves -/

/-- The mean of `2n` reals is half the sum of the means of the first `n` and of the last `n`, at
    `n = 131072`, each sum taken from zero and each quotient the extended reals' division. -/
theorem mean_halves {ι κ : Type*} (s : Finset ι) (t : Finset κ) (A : ι → ℝ) (B : κ → ℝ) :
    Ideal.div ((0 : EReal) + (∑ i ∈ s, (A i : EReal) + ∑ j ∈ t, (B j : EReal))) ((262144 : ℝ) : EReal)
      = Ideal.div (Ideal.div ((0 : EReal) + ∑ i ∈ s, (A i : EReal)) ((131072 : ℝ) : EReal)
          + Ideal.div ((0 : EReal) + ∑ j ∈ t, (B j : EReal)) ((131072 : ℝ) : EReal)) ((2 : ℝ) : EReal) := by
  rw [coe_sum, coe_sum,
    Ideal.div_coe (y := 262144) (by norm_num), Ideal.div_coe (y := 131072) (by norm_num),
    Ideal.div_coe (y := 131072) (by norm_num), Ideal.div_coe (y := 2) (by norm_num),
    ← EReal.coe_zero]
  simp only [← EReal.coe_add, ← EReal.coe_mul]
  rw [EReal.coe_eq_coe_iff]
  ring

/-! ### The float literals -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `131072.0 = 2¹⁷` denotes the real `131072`. -/
theorem ofBits_131072 : Ideal.ofBits .f32 0x48000000#32 = ((131072 : ℝ) : EReal) := by
  simp [Ideal.ofBits, Ideal.ieee, -EReal.coe_mul]; norm_num

/-- The pattern of `262144.0 = 2¹⁸` denotes the real `262144`. -/
theorem ofBits_262144 : Ideal.ofBits .f32 0x48800000#32 = ((262144 : ℝ) : EReal) := by
  simp [Ideal.ofBits, Ideal.ieee, -EReal.coe_mul]; norm_num

/-- The pattern of `+inf` denotes `+∞`. -/
theorem ofBits_inf : Ideal.ofBits .f32 0x7F800000#32 = (⊤ : EReal) := by
  simp [Ideal.ofBits, Ideal.ieee]

end MinDist

end
-- ==== Proof.Nearest.lean ====
/-
  Closest-point distances between two clouds of planar points, batch by batch.

  For clouds `u` and `v` of 2048 points each in 32 batches, `sqd u v b n m` is the squared Euclidean distance
  between point `n` of `u` and point `m` of `v` in batch `b`.  The nearest squared distance from a point of
  one cloud to the other cloud is a minimum, taken from `+∞`, over the other cloud's points; the nearest
  distance is the minimum of the roots.  The root is monotone on the extended reals and fixes `+∞`, so the
  root of the minimum is the minimum of the roots.  A minimum over 2048 points can be taken block by block:
  over consecutive blocks of 512 folded one after the other into a running minimum, or over 16 blocks of 128
  whose minima are folded afterwards; every such statement is proved through the universal property of a
  minimum (`c ≤ min ... ↔ c ≤ every entry`).
-/
import Idealize.ShloMosaic.PureOps.Ideal
import Idealize.ShloMosaic.PureOps.Ideal.Laws
import Idealize.ShloMosaic.Lib.ValueIdx
import proofs.«118698_j4939212390980_2_alg».proof.Proof.LibMinDist

noncomputable section

namespace Cert.Nearest

open Idealize.ShloMosaic Idealize.ShloMosaic.ValueIdx

/-- 32 batches of 2048 planar points, as extended reals. -/
abbrev Cloud : Type := (⟨3, ![32, 2048, 2]⟩ : Shape).Idx → EReal

/-- The squared distance between point `n` of `u` and point `m` of `v` in batch `b`. -/
def sqd (u v : Cloud) (b : Fin 32) (n m : Fin 2048) : EReal :=
  (u (ix3 b n 0) - v (ix3 b m 0)) * (u (ix3 b n 0) - v (ix3 b m 0))
    + (u (ix3 b n 1) - v (ix3 b m 1)) * (u (ix3 b n 1) - v (ix3 b m 1))

/-- The nearest squared distance from point `n` of `u` to the cloud `v`. -/
def rowSq (u v : Cloud) (b : Fin 32) (n : Fin 2048) : EReal :=
  (Finset.univ : Finset (Fin 2048)).fold min ⊤ (fun m => sqd u v b n m)

/-- The nearest squared distance from point `m` of `v` to the cloud `u`. -/
def colSq (u v : Cloud) (b : Fin 32) (m : Fin 2048) : EReal :=
  (Finset.univ : Finset (Fin 2048)).fold min ⊤ (fun n => sqd u v b n m)

/-- The nearest distance from point `n` of `u` to the cloud `v`: the minimum of the roots. -/
def rowDist (u v : Cloud) (b : Fin 32) (n : Fin 2048) : EReal :=
  (Finset.univ : Finset (Fin 2048)).fold min ⊤ (fun m => Ideal.sqrt (sqd u v b n m))

/-- The nearest distance from point `m` of `v` to the cloud `u`: the minimum of the roots. -/
def colDist (u v : Cloud) (b : Fin 32) (m : Fin 2048) : EReal :=
  (Finset.univ : Finset (Fin 2048)).fold min ⊤ (fun n => Ideal.sqrt (sqd u v b n m))

/-- The root of the nearest squared distance is the nearest distance. -/
theorem sqrt_rowSq (u v : Cloud) (b : Fin 32) (n : Fin 2048) : Ideal.sqrt (rowSq u v b n) = rowDist u v b n := by
  unfold rowSq rowDist
  rw [MinDist.map_fold_min _ MinDist.sqrt_mono, Ideal.sqrt_top]

theorem sqrt_colSq (u v : Cloud) (b : Fin 32) (m : Fin 2048) : Ideal.sqrt (colSq u v b m) = colDist u v b m := by
  unfold colSq colDist
  rw [MinDist.map_fold_min _ MinDist.sqrt_mono, Ideal.sqrt_top]

/-- A bound is below a minimum taken from `+∞` exactly when it is below every entry. -/
theorem le_fold_min_top {ι : Type*} (s : Finset ι) (g : ι → EReal) (c : EReal) :
    c ≤ s.fold min ⊤ g ↔ ∀ i ∈ s, c ≤ g i := by
  rw [Finset.le_fold_min]
  exact ⟨fun h => h.2, fun h => ⟨le_top, h⟩⟩

/-- The nearest squared distance from point `n` of `u` to the first `k` points of `v`. -/
def rowSqUpto (u v : Cloud) (k : ℕ) (b : Fin 32) (n : Fin 2048) : EReal :=
  ((Finset.univ : Finset (Fin 2048)).filter (fun m => m.val < k)).fold min ⊤ (fun m => sqd u v b n m)

theorem rowSqUpto_zero (u v : Cloud) (b : Fin 32) (n : Fin 2048) : rowSqUpto u v 0 b n = ⊤ := by
  unfold rowSqUpto
  rw [Finset.filter_false_of_mem (fun m _ => Nat.not_lt_zero _), Finset.fold_empty]

theorem rowSqUpto_all (u v : Cloud) (b : Fin 32) (n : Fin 2048) : rowSqUpto u v 2048 b n = rowSq u v b n := by
  unfold rowSqUpto rowSq
  rw [Finset.filter_true_of_mem (fun m _ => m.isLt)]

/-- Folding the minimum over the next block of 512 points of `v` into the running minimum. -/
theorem rowSqUpto_step (u v : Cloud) (b : Fin 32) (n : Fin 2048) (j : ℕ) (hj : 512 * (j + 1) ≤ 2048) :
    min (rowSqUpto u v (512 * j) b n)
        ((Finset.univ : Finset (Fin 512)).fold min ⊤ (fun l => sqd u v b n ⟨512 * j + l.val, by omega⟩))
      = rowSqUpto u v (512 * (j + 1)) b n := by
  refine eq_of_forall_le_iff fun c => ?_
  unfold rowSqUpto
  rw [le_min_iff, le_fold_min_top, le_fold_min_top, le_fold_min_top]
  constructor
  · rintro ⟨h1, h2⟩ m hm
    have hm' : m.val < 512 * (j + 1) := (Finset.mem_filter.mp hm).2
    by_cases hlt : m.val < 512 * j
    · exact h1 m (Finset.mem_filter.mpr ⟨Finset.mem_univ _, hlt⟩)
    · have h := h2 ⟨m.val - 512 * j, by omega⟩ (Finset.mem_univ _)
      have e : (⟨512 * j + (m.val - 512 * j), by omega⟩ : Fin 2048) = m := Fin.ext (by show 512 * j + (m.val - 512 * j) = m.val; omega)
      rw [e] at h
      exact h
  · intro h
    refine ⟨fun m hm => h m (Finset.mem_filter.mpr ⟨Finset.mem_univ _, ?_⟩), fun l _ => h _ (Finset.mem_filter.mpr ⟨Finset.mem_univ _, ?_⟩)⟩
    · have := (Finset.mem_filter.mp hm).2; omega
    · show 512 * j + l.val < 512 * (j + 1); omega

/-- The nearest squared distance from point `m` of `v` to the cloud `u`, taken over 16 blocks of 128 points of `u`. -/
theorem colSq_blocks (u v : Cloud) (b : Fin 32) (m : Fin 2048) :
    (Finset.univ : Finset (Fin 16)).fold min ⊤ (fun i =>
        (Finset.univ : Finset (Fin 128)).fold min ⊤ (fun r => sqd u v b ⟨128 * i.val + r.val, by omega⟩ m))
      = colSq u v b m := by
  refine eq_of_forall_le_iff fun c => ?_
  unfold colSq
  rw [le_fold_min_top, le_fold_min_top]
  constructor
  · intro h n _
    have h' := (le_fold_min_top _ _ c).mp (h ⟨n.val / 128, by omega⟩ (Finset.mem_univ _)) ⟨n.val % 128, Nat.mod_lt _ (by norm_num)⟩ (Finset.mem_univ _)
    have e : (⟨128 * (n.val / 128) + n.val % 128, by omega⟩ : Fin 2048) = n := Fin.ext (by show 128 * (n.val / 128) + n.val % 128 = n.val; omega)
    rw [e] at h'
    exact h'
  · intro h i _
    rw [le_fold_min_top]
    exact fun r _ => h _ (Finset.mem_univ _)

end Cert.Nearest

end
-- ==== Proof.KernelInputs.lean ====
/-
  What the kernel's four input windows hold.

  Before the region the host cuts each cloud [32, 2048, 2] into its two coordinate planes: the first cloud's
  as columns [32, 2048, 1] (a slice of the last axis, a reshape that drops it, a broadcast that puts a unit axis
  back), the second cloud's as matrices [32, 2048].  Read at an index each of these arrays is the cloud at that
  batch and point, at coordinate 0 or 1.  The grid is 16 row tiles by 4 lane tiles, point `t` being row tile
  `t / 4` and lane tile `t % 4`; a window's block at a point starts at its block index times the block size, so
  the blocks the body loads are the coordinates of 128 consecutive points of the first cloud and of 512
  consecutive points of the second.
-/
import proofs.«118698_j4939212390980_2_alg».proof.Proof.Gen.KernelIdeal.Frame
import proofs.«118698_j4939212390980_2_alg».proof.Proof.Nearest
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Inputs

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The two clouds as core `c` holds them at launch. -/
abbrev cloudU (c : Dev nD) : Cert.Nearest.Cloud := m ((c : Thread nD τ).loc main_arg0)
abbrev cloudV (c : Dev nD) : Cert.Nearest.Cloud := m ((c : Thread nD τ).loc main_arg1)

/-! ## The four arrays the region stages, read at an index -/

/-- Window 0's array is the first coordinate of the first cloud, as a column. -/
theorem V_v8_apply (c : Dev nD) (b : Fin 32) (n : Fin 2048) (z : Fin 1) :
    (V (F := Ideal) m c main_v8 : S32x2048x1.Idx → EReal) (ix3 b n z) = cloudU m c (ix3 b n 0) := by
  show StableHlo.after hostOps0 (fun b => m (c, b)) (Proc.devRef .tc main_v8) (ix3 b n z) = _
  after_results
  refine (broadcastInDim_apply _ bcast_S32x2048_S32x2048x1_0_1 _ (ix3 b n z) (ix2 b n) (fun a => by
    match a with
    | ⟨0, _⟩ => show b.val = if (32 : Nat) = 1 then 0 else b.val; rw [if_neg (by decide)]
    | ⟨1, _⟩ => show n.val = if (2048 : Nat) = 1 then 0 else n.val; rw [if_neg (by decide)])).trans ?_
  refine (shapeCast_apply _ shapeCasts_S32x2048x1_S32x2048 (ix2 b n) (ix3 b n 0) (by
    rw [Shape.rowMajor_val_three, Shape.rowMajor_val_two]
    show (b.val * 2048 + n.val) * 1 + 0 = b.val * 2048 + n.val
    omega)).trans ?_
  exact extractStridedSlice_apply _ _ _ (ix3 b n 0) (ix3 b n 0) (fun a => by
    match a with
    | ⟨0, _⟩ => show b.val = 0 + b.val; omega
    | ⟨1, _⟩ => show n.val = 0 + n.val; omega
    | ⟨2, _⟩ => show (0 : Nat) = 0 + 0; rfl)

/-- Window 1's array is the second coordinate of the first cloud, as a column. -/
theorem V_v9_apply (c : Dev nD) (b : Fin 32) (n : Fin 2048) (z : Fin 1) :
    (V (F := Ideal) m c main_v9 : S32x2048x1.Idx → EReal) (ix3 b n z) = cloudU m c (ix3 b n 1) := by
  show StableHlo.after hostOps0 (fun b => m (c, b)) (Proc.devRef .tc main_v9) (ix3 b n z) = _
  after_results
  refine (broadcastInDim_apply _ bcast_S32x2048_S32x2048x1_0_1 _ (ix3 b n z) (ix2 b n) (fun a => by
    match a with
    | ⟨0, _⟩ => show b.val = if (32 : Nat) = 1 then 0 else b.val; rw [if_neg (by decide)]
    | ⟨1, _⟩ => show n.val = if (2048 : Nat) = 1 then 0 else n.val; rw [if_neg (by decide)])).trans ?_
  refine (shapeCast_apply _ shapeCasts_S32x2048x1_S32x2048 (ix2 b n) (ix3 b n 0) (by
    rw [Shape.rowMajor_val_three, Shape.rowMajor_val_two]
    show (b.val * 2048 + n.val) * 1 + 0 = b.val * 2048 + n.val
    omega)).trans ?_
  exact extractStridedSlice_apply _ _ _ (ix3 b n 0) (ix3 b n 1) (fun a => by
    match a with
    | ⟨0, _⟩ => show b.val = 0 + b.val; omega
    | ⟨1, _⟩ => show n.val = 0 + n.val; omega
    | ⟨2, _⟩ => show (1 : Nat) = 1 + 0; rfl)

/-- Window 2's array is the first coordinate of the second cloud, as rows. -/
theorem V_v5_apply (c : Dev nD) (b : Fin 32) (k : Fin 2048) :
    (V (F := Ideal) m c main_v5 : S32x2048.Idx → EReal) (ix2 b k) = cloudV m c (ix3 b k 0) := by
  show StableHlo.after hostOps0 (fun b => m (c, b)) (Proc.devRef .tc main_v5) (ix2 b k) = _
  after_results
  refine (shapeCast_apply _ shapeCasts_S32x2048x1_S32x2048 (ix2 b k) (ix3 b k 0) (by
    rw [Shape.rowMajor_val_three, Shape.rowMajor_val_two]
    show (b.val * 2048 + k.val) * 1 + 0 = b.val * 2048 + k.val
    omega)).trans ?_
  exact extractStridedSlice_apply _ _ _ (ix3 b k 0) (ix3 b k 0) (fun a => by
    match a with
    | ⟨0, _⟩ => show b.val = 0 + b.val; omega
    | ⟨1, _⟩ => show k.val = 0 + k.val; omega
    | ⟨2, _⟩ => show (0 : Nat) = 0 + 0; rfl)

/-- Window 3's array is the second coordinate of the second cloud, as rows. -/
theorem V_v7_apply (c : Dev nD) (b : Fin 32) (k : Fin 2048) :
    (V (F := Ideal) m c main_v7 : S32x2048.Idx → EReal) (ix2 b k) = cloudV m c (ix3 b k 1) := by
  show StableHlo.after hostOps0 (fun b => m (c, b)) (Proc.devRef .tc main_v7) (ix2 b k) = _
  after_results
  refine (shapeCast_apply _ shapeCasts_S32x2048x1_S32x2048 (ix2 b k) (ix3 b k 0) (by
    rw [Shape.rowMajor_val_three, Shape.rowMajor_val_two]
    show (b.val * 2048 + k.val) * 1 + 0 = b.val * 2048 + k.val
    omega)).trans ?_
  exact extractStridedSlice_apply _ _ _ (ix3 b k 0) (ix3 b k 1) (fun a => by
    match a with
    | ⟨0, _⟩ => show b.val = 0 + b.val; omega
    | ⟨1, _⟩ => show k.val = 0 + k.val; omega
    | ⟨2, _⟩ => show (1 : Nat) = 1 + 0; rfl)

/-! ## The windows' block indices over the grid -/

/-- Point `t` of the 16 × 4 grid is row tile `t / 4` and lane tile `t % 4`; each window's block index at `t`,
    decided over the 64 points. -/
theorem idx_facts : ∀ t : Fin cfg0.N,
    win0_0.index t (0 : Fin 3) = 0 ∧ win0_0.index t (1 : Fin 3) = t.val / 4 ∧ win0_0.index t (2 : Fin 3) = 0
    ∧ win0_1.index t (0 : Fin 3) = 0 ∧ win0_1.index t (1 : Fin 3) = t.val / 4 ∧ win0_1.index t (2 : Fin 3) = 0
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = 0 ∧ win0_4.index t (1 : Fin 2) = t.val / 4
    ∧ win0_5.index t (0 : Fin 3) = t.val / 4 ∧ win0_5.index t (1 : Fin 3) = 0 ∧ win0_5.index t (2 : Fin 3) = t.val % 4 :=
  (by decide +kernel : ∀ t : Fin grid0.N, _)

theorem t_lt (t : Fin cfg0.N) : t.val < 64 := lt_of_lt_of_eq t.isLt (show cfg0.N = 64 from N_0)

/-! ## The input blocks at a point -/

/-- The row tile's first coordinates: block `I = t / 4` of 128 points of the first cloud. -/
theorem iblk0_apply (c : Dev nD) (t : Fin cfg0.N) (I : ℕ) (hI : t.val / 4 = I) (hI16 : I < 16) (b : Fin 32) (r : Fin 128) :
    (iblk (F := Ideal) m c 0 t : Vec Ideal S32x128x1 .f32) (ix3 b r 0)
      = cloudU m c (ix3 b ⟨128 * I + r.val, by omega⟩ 0) := by
  subst hI
  obtain ⟨e0, e1, e2, -⟩ := idx_facts t
  show V m c main_v8 (((cfg0.win 0).blk t).view.emb (ix3 b r 0)) = _
  rw [show ((cfg0.win 0).blk t).view.emb (ix3 b r (0 : Fin 1))
      = ix3 b (⟨128 * (t.val / 4) + r.val, by omega⟩ : Fin 2048) (0 : Fin 1) from by
    funext a; apply Fin.ext
    match a with
    | ⟨0, _⟩ => show win0_0.index t (0 : Fin 3) * 32 + 1 * b.val = b.val; omega
    | ⟨1, _⟩ => show win0_0.index t (1 : Fin 3) * 128 + 1 * r.val = 128 * (t.val / 4) + r.val; omega
    | ⟨2, _⟩ => show win0_0.index t (2 : Fin 3) * 1 + 1 * 0 = 0; omega]
  exact V_v8_apply m c b _ 0

/-- The row tile's second coordinates. -/
theorem iblk1_apply (c : Dev nD) (t : Fin cfg0.N) (I : ℕ) (hI : t.val / 4 = I) (hI16 : I < 16) (b : Fin 32) (r : Fin 128) :
    (iblk (F := Ideal) m c 1 t : Vec Ideal S32x128x1 .f32) (ix3 b r 0)
      = cloudU m c (ix3 b ⟨128 * I + r.val, by omega⟩ 1) := by
  subst hI
  obtain ⟨-, -, -, e0, e1, e2, -⟩ := idx_facts t
  show V m c main_v9 (((cfg0.win 1).blk t).view.emb (ix3 b r 0)) = _
  rw [show ((cfg0.win 1).blk t).view.emb (ix3 b r (0 : Fin 1))
      = ix3 b (⟨128 * (t.val / 4) + r.val, by omega⟩ : Fin 2048) (0 : Fin 1) from by
    funext a; apply Fin.ext
    match a with
    | ⟨0, _⟩ => show win0_1.index t (0 : Fin 3) * 32 + 1 * b.val = b.val; omega
    | ⟨1, _⟩ => show win0_1.index t (1 : Fin 3) * 128 + 1 * r.val = 128 * (t.val / 4) + r.val; omega
    | ⟨2, _⟩ => show win0_1.index t (2 : Fin 3) * 1 + 1 * 0 = 0; omega]
  exact V_v9_apply m c b _ 0

/-- The lane tile's first coordinates: block `J = t % 4` of 512 points of the second cloud. -/
theorem iblk2_apply (c : Dev nD) (t : Fin cfg0.N) (J : ℕ) (hJ : t.val % 4 = J) (hJ4 : J < 4) (b : Fin 32) (l : Fin 512) :
    (iblk (F := Ideal) m c 2 t : Vec Ideal S32x512 .f32) (ix2 b l)
      = cloudV m c (ix3 b ⟨512 * J + l.val, by omega⟩ 0) := by
  subst hJ
  obtain ⟨-, -, -, -, -, -, e0, e1, -⟩ := idx_facts t
  show V m c main_v5 (((cfg0.win 2).blk t).view.emb (ix2 b l)) = _
  rw [show ((cfg0.win 2).blk t).view.emb (ix2 b l)
      = ix2 b (⟨512 * (t.val % 4) + l.val, by omega⟩ : Fin 2048) from by
    funext a; apply Fin.ext
    match a with
    | ⟨0, _⟩ => show win0_2.index t (0 : Fin 2) * 32 + 1 * b.val = b.val; omega
    | ⟨1, _⟩ => show win0_2.index t (1 : Fin 2) * 512 + 1 * l.val = 512 * (t.val % 4) + l.val; omega]
  exact V_v5_apply m c b _

/-- The lane tile's second coordinates. -/
theorem iblk3_apply (c : Dev nD) (t : Fin cfg0.N) (J : ℕ) (hJ : t.val % 4 = J) (hJ4 : J < 4) (b : Fin 32) (l : Fin 512) :
    (iblk (F := Ideal) m c 3 t : Vec Ideal S32x512 .f32) (ix2 b l)
      = cloudV m c (ix3 b ⟨512 * J + l.val, by omega⟩ 1) := by
  subst hJ
  obtain ⟨-, -, -, -, -, -, -, -, e0, e1, -⟩ := idx_facts t
  show V m c main_v7 (((cfg0.win 3).blk t).view.emb (ix2 b l)) = _
  rw [show ((cfg0.win 3).blk t).view.emb (ix2 b l)
      = ix2 b (⟨512 * (t.val % 4) + l.val, by omega⟩ : Fin 2048) from by
    funext a; apply Fin.ext
    match a with
    | ⟨0, _⟩ => show win0_3.index t (0 : Fin 2) * 32 + 1 * b.val = b.val; omega
    | ⟨1, _⟩ => show win0_3.index t (1 : Fin 2) * 512 + 1 * l.val = 512 * (t.val % 4) + l.val; omega]
  exact V_v7_apply m c b _

end Cert.KernelIdeal.Inputs

end
-- ==== Proof.LibMinReduce.lean ====
/-
  Minimum reductions of a matrix along one axis, and a column read through a trailing unit axis.

  At the ideal values a minimum reduction over one axis is, at each kept index, the fold of `min` from the
  accumulator's value over the reduced axis's coordinates, in any order (`min` commutes and associates). For a
  matrix [a, b] this is the minimum of a row over its lanes (axis 1), or of a column over its rows (axis 0).
  A vector [a] recast as a column [a, 1] holds at (i, 0) the vector's entry i.
-/
import Idealize.ShloMosaic.PureOps.Ideal.Laws
import Idealize.ShloMosaic.Lib.ValueIdx
import Idealize.ShloMosaic.Lib.Pipeline.Value

noncomputable section

namespace Cert.Lib.MinReduce

open Idealize.ShloMosaic Idealize.ShloMosaic.ValueIdx

variable {φ : FTy}

/-- A float minimum reduction over ONE axis, read at the ideal values: the fold of `min` from the accumulator's
    value over that axis's coordinates (the kept index with the coordinate inserted). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum of row `r` of an [a, b] matrix over its lanes. -/
theorem min_over_lanes {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (FloatOps.ofBits φ acc) (fun m => src (ix2 r m)) := by
  refine (multiReduction_minimumf_single src acc h hφ hacc (ix1 r)).trans ?_
  show (Finset.univ : Finset (Fin b)).fold min _ _ = _
  refine Finset.fold_congr fun m _ => ?_
  exact congrArg src (funext fun c => Fin.ext (by match c with | ⟨0, _⟩ => rfl | ⟨1, _⟩ => rfl))

/-- The minimum of lane `m` of an [a, b] matrix over its rows. -/
theorem min_over_rows {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (m : Fin b) :
    multiReduction .minimumf [0] ⟨1, ![b]⟩ src acc h hφ hacc (ix1 m)
      = (Finset.univ : Finset (Fin a)).fold min (FloatOps.ofBits φ acc) (fun r => src (ix2 r m)) := by
  refine (multiReduction_minimumf_single src acc h hφ hacc (ix1 m)).trans ?_
  show (Finset.univ : Finset (Fin a)).fold min _ _ = _
  refine Finset.fold_congr fun r _ => ?_
  exact congrArg src (funext fun c => Fin.ext (by match c with | ⟨0, _⟩ => rfl | ⟨1, _⟩ => rfl))

/-- A vector [a] recast as a column [a, 1] reads, at (i, u), the vector's entry i, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.MinReduce

end
-- ==== Proof.PayloadRead.lean ====
/-
  The four pure values the kernel body stores, each read at an index over the extended reals.

  The body holds a block of 128 points of one cloud (their two coordinates as columns [32,128,1]) and a block of
  512 points of the other cloud (their two coordinates as rows [32,512]).  It forms the [32,128,512] block of
  squared distances (x0 - x2)^2 + (x1 - x3)^2 by broadcasting the columns along the lanes and the rows along the
  sublanes; it folds the minimum over the lanes into a running minimum per point of the first block, and writes
  out the minimum over the sublanes per point of the second block.  Read at an index, a broadcast reads its
  operand with the unit coordinate set to zero, a recast that inserts a unit axis reads the operand at the other
  coordinates, and a minimum reduction along one axis is the fold of the minimum from +infinity over that axis.
-/
import proofs.«118698_j4939212390980_2_alg».proof.Proof.Gen.KernelIdeal.Skeleton
import proofs.«118698_j4939212390980_2_alg».proof.Proof.LibMinReduce
import proofs.«118698_j4939212390980_2_alg».proof.Proof.LibMinDist
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen

/-! ### Layout operations of the block, read at an index -/

/-- A column [32,128,1] broadcast along the lanes reads, at (b, r, l), the column's entry (b, r, 0). -/
theorem bcast_col {α : Type} (x : S32x128x1.Idx → α) (h : S32x128x1.Broadcasts S32x128x512)
    (b : Fin 32) (r : Fin 128) (l : Fin 512) :
    broadcastTo S32x128x512 x h (ix3 b r l) = x (ix3 b r 0) := by
  refine broadcastTo_apply x h (ix3 b r l) (ix3 b r 0) fun ax => ?_
  match ax with
  | ⟨0, _⟩ => rfl
  | ⟨1, _⟩ => rfl
  | ⟨2, _⟩ => rfl

/-- A row [32,1,512] broadcast along the sublanes reads, at (b, r, l), the row's entry (b, 0, l). -/
theorem bcast_row {α : Type} (x : S32x1x512.Idx → α) (h : S32x1x512.Broadcasts S32x128x512)
    (b : Fin 32) (r : Fin 128) (l : Fin 512) :
    broadcastTo S32x128x512 x h (ix3 b r l) = x (ix3 b 0 l) := by
  refine broadcastTo_apply x h (ix3 b r l) (ix3 b 0 l) fun ax => ?_
  match ax with
  | ⟨0, _⟩ => rfl
  | ⟨1, _⟩ => rfl
  | ⟨2, _⟩ => rfl

/-- A matrix [32,512] recast with a unit middle axis reads, at (b, u, l), the matrix's entry (b, l). -/
theorem cast_row {α : Type} (x : S32x512.Idx → α) (h : S32x512.ShapeCasts S32x1x512)
    (b : Fin 32) (u : Fin 1) (l : Fin 512) :
    shapeCast S32x1x512 x h (ix3 b u l) = x (ix2 b l) :=
  shapeCast_apply x h _ _ (by
    have hu : u.val = 0 := by omega
    rw [Shape.rowMajor_val_three, Shape.rowMajor_val_two]
    show b.val * 512 + l.val = (b.val * 1 + u.val) * 512 + l.val
    rw [hu, Nat.mul_one, Nat.add_zero])

/-- A matrix [32,512] recast with a leading unit axis reads, at (z, b, l), the matrix's entry (b, l). -/
theorem cast_lead {α : Type} (x : S32x512.Idx → α) (h : S32x512.ShapeCasts S1x32x512)
    (z : Fin 1) (b : Fin 32) (l : Fin 512) :
    shapeCast S1x32x512 x h (ix3 z b l) = x (ix2 b l) :=
  shapeCast_ab_1ab_apply x h z b l

/-! ### The four stored values -/

/-- The initial running minimum is +infinity everywhere. -/
theorem pay1_apply (j : S32x128.Idx) : k0_pay1 (F := Ideal) j = (⊤ : EReal) := by
  unfold k0_pay1
  simp only [shapeCast_self]
  exact MinDist.ofBits_inf

/-- The block of squared distances: entry (b, r, l) is the squared distance between point r of the first block
    and point l of the second, in batch b. -/
theorem pay2_apply (x0 x1 : Vec Ideal S32x128x1 .f32) (x2 x3 : Vec Ideal S32x512 .f32) (b : Fin 32) (r : Fin 128) (l : Fin 512) :
    k0_pay2 (F := Ideal) x0 x1 x2 x3 (ix3 b r l)
      = (x0 (ix3 b r 0) - x2 (ix2 b l)) * (x0 (ix3 b r 0) - x2 (ix2 b l))
        + (x1 (ix3 b r 0) - x3 (ix2 b l)) * (x1 (ix3 b r 0) - x3 (ix2 b l)) := by
  unfold k0_pay2
  simp only [shapeCast_self, addf_apply, mulf_apply, subf_apply, bcast_col, bcast_row, cast_row]

/-- The running minimum after the block: the old value against the minimum over the block's 512 lanes. -/
theorem pay3_apply (x0 x1 : Vec Ideal S32x128x1 .f32) (x2 x3 : Vec Ideal S32x512 .f32) (acc : Vec Ideal S32x128 .f32)
    (b : Fin 32) (r : Fin 128) :
    k0_pay3 (F := Ideal) x0 x1 x2 x3 acc (ix2 b r)
      = min (acc (ix2 b r))
          ((Finset.univ : Finset (Fin 512)).fold min ⊤ (fun l => k0_pay2 (F := Ideal) x0 x1 x2 x3 (ix3 b r l))) := by
  unfold k0_pay3
  simp only [shapeCast_self]
  refine congrArg (min (acc (ix2 b r))) ?_
  refine (Cert.Lib.MinReduce.multiReduction_minimumf_single (k0_pay2 (F := Ideal) x0 x1 x2 x3) 0x7F800000#32
    reduces_S32x128x512_S32x128 (.inl rfl) rfl (ix2 b r)).trans ?_
  show (Finset.univ : Finset (Fin 512)).fold min _ _ = _
  rw [Ideal.ofBits_def, MinDist.ofBits_inf]
  refine Finset.fold_congr fun l _ => ?_
  exact congrArg (k0_pay2 (F := Ideal) x0 x1 x2 x3)
    (funext fun c => Fin.ext (by match c with | ⟨0, _⟩ => rfl | ⟨1, _⟩ => rfl | ⟨2, _⟩ => rfl))

/-- The block's column minima: for each point l of the second block, the minimum over the block's 128 sublanes. -/
theorem pay4_apply (x0 x1 : Vec Ideal S32x128x1 .f32) (x2 x3 : Vec Ideal S32x512 .f32) (z : Fin 1) (b : Fin 32) (l : Fin 512) :
    k0_pay4 (F := Ideal) x0 x1 x2 x3 (ix3 z b l)
      = (Finset.univ : Finset (Fin 128)).fold min ⊤ (fun r => k0_pay2 (F := Ideal) x0 x1 x2 x3 (ix3 b r l)) := by
  unfold k0_pay4
  refine (cast_lead _ shapeCasts_S32x512_S1x32x512 z b l).trans ?_
  refine (Cert.Lib.MinReduce.multiReduction_minimumf_single (k0_pay2 (F := Ideal) x0 x1 x2 x3) 0x7F800000#32
    reduces_S32x128x512_S32x512 (.inl rfl) rfl (ix2 b l)).trans ?_
  show (Finset.univ : Finset (Fin 128)).fold min _ _ = _
  rw [Ideal.ofBits_def, MinDist.ofBits_inf]
  refine Finset.fold_congr fun r _ => ?_
  exact congrArg (k0_pay2 (F := Ideal) x0 x1 x2 x3)
    (funext fun c => Fin.ext (by match c with | ⟨0, _⟩ => rfl | ⟨1, _⟩ => rfl | ⟨2, _⟩ => rfl))

end Cert.KernelIdeal.PayRead

end
-- ==== Proof.TileValues.lean ====
/-
  The kernel body's stored values at one grid point, in terms of the two clouds.

  At row tile `I` (128 points of the first cloud) and lane tile `J` (512 points of the second) the body's
  input blocks are those points' coordinates.  Then the block of squared distances is `sqd` at the tile's
  points; the running row minimum, taken over what the earlier lane tiles left, becomes the nearest squared
  distance to the first `512 (J + 1)` points of the second cloud; and the column minima are the nearest squared
  distances from the lane tile's points to the row tile's 128 points.
-/
import proofs.«118698_j4939212390980_2_alg».proof.Proof.PayloadRead
import proofs.«118698_j4939212390980_2_alg».proof.Proof.Nearest

noncomputable section

namespace Cert.KernelIdeal.Tile

open Idealize.ShloMosaic Idealize.ShloMosaic.ValueIdx Cert.KernelIdeal Cert.KernelIdeal.Gen Cert.KernelIdeal.PayRead Cert.Nearest

variable (x0 x1 : Vec Ideal S32x128x1 .f32) (x2 x3 : Vec Ideal S32x512 .f32) (u v : Cloud) (I J : ℕ) (hI : I < 16) (hJ : J < 4)
  (h0 : ∀ (b : Fin 32) (r : Fin 128), x0 (ix3 b r 0) = u (ix3 b ⟨128 * I + r.val, by omega⟩ 0))
  (h1 : ∀ (b : Fin 32) (r : Fin 128), x1 (ix3 b r 0) = u (ix3 b ⟨128 * I + r.val, by omega⟩ 1))
  (h2 : ∀ (b : Fin 32) (l : Fin 512), x2 (ix2 b l) = v (ix3 b ⟨512 * J + l.val, by omega⟩ 0))
  (h3 : ∀ (b : Fin 32) (l : Fin 512), x3 (ix2 b l) = v (ix3 b ⟨512 * J + l.val, by omega⟩ 1))

include h0 h1 h2 h3

/-- The block of squared distances is `sqd` at the tile's points. -/
theorem pay2_at (b : Fin 32) (r : Fin 128) (l : Fin 512) :
    k0_pay2 (F := Ideal) x0 x1 x2 x3 (ix3 b r l) = sqd u v b ⟨128 * I + r.val, by omega⟩ ⟨512 * J + l.val, by omega⟩ := by
  rw [pay2_apply, h0, h1, h2, h3]
  rfl

/-- The running row minimum after lane tile `J`, over what the earlier lane tiles left. -/
theorem pay3_at (acc : Vec Ideal S32x128 .f32)
    (hacc : ∀ (b : Fin 32) (r : Fin 128), acc (ix2 b r) = rowSqUpto u v (512 * J) b ⟨128 * I + r.val, by omega⟩)
    (b : Fin 32) (r : Fin 128) :
    k0_pay3 (F := Ideal) x0 x1 x2 x3 acc (ix2 b r) = rowSqUpto u v (512 * (J + 1)) b ⟨128 * I + r.val, by omega⟩ := by
  rw [pay3_apply, hacc, ← rowSqUpto_step u v b _ J (by omega)]
  refine congrArg (min _) (Finset.fold_congr fun l _ => ?_)
  exact pay2_at x0 x1 x2 x3 u v I J hI hJ h0 h1 h2 h3 b r l

/-- The tile's column minima. -/
theorem pay4_at (z : Fin 1) (b : Fin 32) (l : Fin 512) :
    k0_pay4 (F := Ideal) x0 x1 x2 x3 (ix3 z b l)
      = (Finset.univ : Finset (Fin 128)).fold min ⊤ (fun r => sqd u v b ⟨128 * I + r.val, by omega⟩ ⟨512 * J + l.val, by omega⟩) := by
  rw [pay4_apply]
  exact Finset.fold_congr fun r _ => pay2_at x0 x1 x2 x3 u v I J hI hJ h0 h1 h2 h3 b r l

end Cert.KernelIdeal.Tile

end
-- ==== Proof.KernelInvariant.lean ====
/-
  What the kernel's output buffers and its scratch hold after each grid point.

  Point `t` of the grid is row tile `t / 4` (128 points of the first cloud) and lane tile `t % 4` (512 points of
  the second).  At every point output 5 receives the tile's column minima.  The scratch carries the running
  row minimum along a row tile: reset to `+∞` and folded over lane tile 0 at the first point of the row tile,
  folded over the next lane tile at each later point; so after point `t` it is the nearest squared distance
  to the first `512 (t % 4 + 1)` points of the second cloud, by induction on the point (the three control
  cases of the body being the first, a middle, and the last lane tile).  At the last lane tile output 4
  receives the scratch, which then is the nearest squared distance to the whole second cloud.
-/
import proofs.«118698_j4939212390980_2_alg».proof.Proof.Gen.KernelIdeal.Frame
import proofs.«118698_j4939212390980_2_alg».proof.Proof.KernelPieces
import proofs.«118698_j4939212390980_2_alg».proof.Proof.KernelInputs
import proofs.«118698_j4939212390980_2_alg».proof.Proof.TileValues

set_option maxRecDepth 16384

noncomputable section

namespace Cert.KernelIdeal.Points

open Idealize.ShloMosaic Idealize.ShloMosaic.TcCoe Idealize.ShloMosaic.ValueIdx
open Idealize.SL Idealize.SL.Sem
open Cert.KernelIdeal Cert.KernelIdeal.Gen Cert.KernelIdeal.Inputs Cert.KernelIdeal.Tile Cert.Nearest

variable (m : (ℓ : Loc nD τ sig) → Buf (Elt Ideal) ℓ)

/-- The nearest squared distance to the first `k` points depends only on the values of its arguments. -/
theorem rowSqUpto_congr (u v : Cloud) (k k' : ℕ) (hk : k = k') (b : Fin 32) (p p' : Fin 2048) (hp : p = p') :
    rowSqUpto u v k b p = rowSqUpto u v k' b p' := by subst hk; subst hp; rfl

/-! ## Output 5: the tile's column minima, at every point -/

theorem out5_at (c : Dev nD) (t : Fin cfg0.N) (z : Fin 1) (b : Fin 32) (l : Fin 512) :
    ((outsAt0 (F := Ideal) m c t.val t.isLt).2.1 : Vec Ideal S1x32x512 .f32) (ix3 z b l)
      = (Finset.univ : Finset (Fin 128)).fold min ⊤ (fun r =>
          sqd (cloudU m c) (cloudV m c) b ⟨128 * (t.val / 4) + r.val, by have := t_lt t; omega⟩ ⟨512 * (t.val % 4) + l.val, by omega⟩) := by
  have hN := t_lt t
  by_cases h0 : t.val % 4 = 0
  · have h1 : ¬ t.val % 4 = 3 := by omega
    rw [outsAt0_A (F := Ideal) m c t h0 h1]
    dsimp only
    refine (congrFun (Pieces.out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) (ix3 z b l)).trans ?_
    exact pay4_at (iblk m c 0 t) (iblk m c 1 t) (iblk m c 2 t) (iblk m c 3 t) (cloudU m c) (cloudV m c) (t.val / 4) (t.val % 4) (by omega) (by omega) (fun b' r' => iblk0_apply m c t (t.val / 4) rfl (by omega) b' r') (fun b' r' => iblk1_apply m c t (t.val / 4) rfl (by omega) b' r') (fun b' l' => iblk2_apply m c t (t.val % 4) rfl (by omega) b' l') (fun b' l' => iblk3_apply m c t (t.val % 4) rfl (by omega) b' l') z b l
  · by_cases h1 : t.val % 4 = 3
    · rw [outsAt0_C (F := Ideal) m c t h0 h1]
      dsimp only
      refine (congrFun (Pieces.out5_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) _) (ix3 z b l)).trans ?_
      exact pay4_at (iblk m c 0 t) (iblk m c 1 t) (iblk m c 2 t) (iblk m c 3 t) (cloudU m c) (cloudV m c) (t.val / 4) (t.val % 4) (by omega) (by omega) (fun b' r' => iblk0_apply m c t (t.val / 4) rfl (by omega) b' r') (fun b' r' => iblk1_apply m c t (t.val / 4) rfl (by omega) b' r') (fun b' l' => iblk2_apply m c t (t.val % 4) rfl (by omega) b' l') (fun b' l' => iblk3_apply m c t (t.val % 4) rfl (by omega) b' l') z b l
    · rw [outsAt0_B (F := Ideal) m c t h0 h1]
      dsimp only
      refine (congrFun (Pieces.out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) _) (ix3 z b l)).trans ?_
      exact pay4_at (iblk m c 0 t) (iblk m c 1 t) (iblk m c 2 t) (iblk m c 3 t) (cloudU m c) (cloudV m c) (t.val / 4) (t.val % 4) (by omega) (by omega) (fun b' r' => iblk0_apply m c t (t.val / 4) rfl (by omega) b' r') (fun b' r' => iblk1_apply m c t (t.val / 4) rfl (by omega) b' r') (fun b' l' => iblk2_apply m c t (t.val % 4) rfl (by omega) b' l') (fun b' l' => iblk3_apply m c t (t.val % 4) rfl (by omega) b' l') z b l

/-! ## The scratch: the running row minimum after each point -/

/-- After point `n` (row tile `n / 4`, lane tile `n % 4`) the scratch holds, for each of the row tile's points,
    the nearest squared distance to the first `512 (n % 4 + 1)` points of the second cloud: at the first lane
    tile it was reset to `+∞`; later it is folded over what the point before left. -/
theorem scratch_at (c : Dev nD) (n : ℕ) : ∀ (hn : n < cfg0.N) (b : Fin 32) (r : Fin 128),
    ((outsAt0 (F := Ideal) m c n hn).2.2 : Vec Ideal S32x128 .f32) (ix2 b r)
      = rowSqUpto (cloudU m c) (cloudV m c) (512 * (n % 4 + 1)) b
          ⟨128 * (n / 4) + r.val, by have : n < 64 := lt_of_lt_of_eq hn (show cfg0.N = 64 from N_0); omega⟩ := by
  induction n using Nat.strong_induction_on with
  | _ n ih =>
    intro hn b r
    have hN : n < 64 := lt_of_lt_of_eq hn (show cfg0.N = 64 from N_0)
    by_cases h0 : n % 4 = 0
    · have h1 : ¬ n % 4 = 3 := by omega
      rw [show outsAt0 (F := Ideal) m c n hn = _ from outsAt0_A (F := Ideal) m c ⟨n, hn⟩ h0 h1]
      dsimp only
      refine (congrFun (Pieces.sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)) (ix2 b r)).trans ?_
      exact pay3_at (iblk m c 0 ⟨n, hn⟩) (iblk m c 1 ⟨n, hn⟩) (iblk m c 2 ⟨n, hn⟩) (iblk m c 3 ⟨n, hn⟩) (cloudU m c) (cloudV m c) (n / 4) (n % 4) (by omega) (by omega) (fun b' r' => iblk0_apply m c ⟨n, hn⟩ (n / 4) rfl (by omega) b' r') (fun b' r' => iblk1_apply m c ⟨n, hn⟩ (n / 4) rfl (by omega) b' r') (fun b' l' => iblk2_apply m c ⟨n, hn⟩ (n % 4) rfl (by omega) b' l') (fun b' l' => iblk3_apply m c ⟨n, hn⟩ (n % 4) rfl (by omega) b' l') (k0_pay1 (F := Ideal)) (fun b' r' => by rw [PayRead.pay1_apply, h0, Nat.mul_zero, rowSqUpto_zero]) b r
    · have hprev : ∀ (hp : n - 1 < cfg0.N) (b' : Fin 32) (r' : Fin 128),
          ((outsAt0 (F := Ideal) m c (n - 1) hp).2.2 : Vec Ideal S32x128 .f32) (ix2 b' r')
            = rowSqUpto (cloudU m c) (cloudV m c) (512 * (n % 4)) b' ⟨128 * (n / 4) + r'.val, by omega⟩ := by
        intro hp b' r'
        refine (ih (n - 1) (by omega) hp b' r').trans ?_
        exact rowSqUpto_congr _ _ _ _ (by omega) b' _ _ (Fin.ext (by show 128 * ((n - 1) / 4) + r'.val = 128 * (n / 4) + r'.val; omega))
      by_cases h1 : n % 4 = 3
      · rw [show outsAt0 (F := Ideal) m c n hn = _ from outsAt0_C (F := Ideal) m c ⟨n, hn⟩ h0 h1]
        dsimp only
        refine (congrFun (Pieces.sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) _) (ix2 b r)).trans ?_
        exact pay3_at (iblk m c 0 ⟨n, hn⟩) (iblk m c 1 ⟨n, hn⟩) (iblk m c 2 ⟨n, hn⟩) (iblk m c 3 ⟨n, hn⟩) (cloudU m c) (cloudV m c) (n / 4) (n % 4) (by omega) (by omega) (fun b' r' => iblk0_apply m c ⟨n, hn⟩ (n / 4) rfl (by omega) b' r') (fun b' r' => iblk1_apply m c ⟨n, hn⟩ (n / 4) rfl (by omega) b' r') (fun b' l' => iblk2_apply m c ⟨n, hn⟩ (n % 4) rfl (by omega) b' l') (fun b' l' => iblk3_apply m c ⟨n, hn⟩ (n % 4) rfl (by omega) b' l') _ (fun b' r' => hprev _ b' r') b r
      · rw [show outsAt0 (F := Ideal) m c n hn = _ from outsAt0_B (F := Ideal) m c ⟨n, hn⟩ h0 h1]
        dsimp only
        refine (congrFun (Pieces.sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) _) (ix2 b r)).trans ?_
        exact pay3_at (iblk m c 0 ⟨n, hn⟩) (iblk m c 1 ⟨n, hn⟩) (iblk m c 2 ⟨n, hn⟩) (iblk m c 3 ⟨n, hn⟩) (cloudU m c) (cloudV m c) (n / 4) (n % 4) (by omega) (by omega) (fun b' r' => iblk0_apply m c ⟨n, hn⟩ (n / 4) rfl (by omega) b' r') (fun b' r' => iblk1_apply m c ⟨n, hn⟩ (n / 4) rfl (by omega) b' r') (fun b' l' => iblk2_apply m c ⟨n, hn⟩ (n % 4) rfl (by omega) b' l') (fun b' l' => iblk3_apply m c ⟨n, hn⟩ (n % 4) rfl (by omega) b' l') _ (fun b' r' => hprev _ b' r') b r

/-! ## Output 4: the finished row minima, at the last lane tile -/

theorem out4_at (c : Dev nD) (t : Fin cfg0.N) (h1 : t.val % 4 = 3) (b : Fin 32) (r : Fin 128) :
    ((outsAt0 (F := Ideal) m c t.val t.isLt).1 : Vec Ideal S32x128 .f32) (ix2 b r)
      = rowSq (cloudU m c) (cloudV m c) b ⟨128 * (t.val / 4) + r.val, by have := t_lt t; omega⟩ := by
  have hN := t_lt t
  have h0 : ¬ t.val % 4 = 0 := by omega
  rw [outsAt0_C (F := Ideal) m c t h0 h1]
  dsimp only
  refine (congrFun (Pieces.out4_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) _) (ix2 b r)).trans ?_
  refine (pay3_at (iblk m c 0 t) (iblk m c 1 t) (iblk m c 2 t) (iblk m c 3 t) (cloudU m c) (cloudV m c) (t.val / 4) (t.val % 4) (by omega) (by omega) (fun b' r' => iblk0_apply m c t (t.val / 4) rfl (by omega) b' r') (fun b' r' => iblk1_apply m c t (t.val / 4) rfl (by omega) b' r') (fun b' l' => iblk2_apply m c t (t.val % 4) rfl (by omega) b' l') (fun b' l' => iblk3_apply m c t (t.val % 4) rfl (by omega) b' l') _ (fun b' r' => ?_) b r).trans ?_
  · refine (scratch_at m c (t.val - 1) _ b' r').trans ?_
    exact rowSqUpto_congr _ _ _ _ (by omega) b' _ _ (Fin.ext (by show 128 * ((t.val - 1) / 4) + r'.val = 128 * (t.val / 4) + r'.val; omega))
  · exact (rowSqUpto_congr _ _ _ _ (by omega) b _ _ rfl).trans (rowSqUpto_all _ _ b _)

end Cert.KernelIdeal.Points

end
-- ==== Proof.KernelArrays.lean ====
/-
  The two arrays the region leaves.

  Output window 4 is written back only at the last lane tile of each row tile, with the finished row minima
  of that tile's 128 points; its 16 blocks tile the array [32, 2048], so the array ends holding, at (b, n), the
  nearest squared distance from point n of the first cloud to the second cloud.  Output window 5 is written
  back at every point, block (row tile, 0, lane tile) of the array [16, 32, 2048]; its 64 blocks tile the array,
  which ends holding, at (i, b, k), the nearest squared distance from point k of the second cloud to row tile i
  of the first.  An index lies in a block when every coordinate lies between the block's index times the block's
  size and one block further.
-/
import proofs.«118698_j4939212390980_2_alg».proof.Proof.Gen.KernelIdeal.Frame
import proofs.«118698_j4939212390980_2_alg».proof.Proof.KernelInvariant
import Idealize.ShloMosaic.Lib.Pipeline.Value

set_option maxRecDepth 16384

noncomputable section

namespace Cert.KernelIdeal.Arrays

open Idealize.ShloMosaic Idealize.ShloMosaic.TcCoe Idealize.ShloMosaic.ValueIdx
open Idealize.SL Idealize.SL.Sem
open Cert.KernelIdeal Cert.KernelIdeal.Gen Cert.KernelIdeal.Inputs Cert.KernelIdeal.Points Cert.Nearest

variable (m : (ℓ : Loc nD τ sig) → Buf (Elt Ideal) ℓ)

/-- The nearest squared distance from point `k` of the second cloud to row tile `i` of the first. -/
def colTile (u v : Cloud) (i : Fin 16) (b : Fin 32) (k : Fin 2048) : EReal :=
  (Finset.univ : Finset (Fin 128)).fold min ⊤ (fun r => sqd u v b ⟨128 * i.val + r.val, by omega⟩ k)

/-- What output array 4 ends holding: the nearest squared distances of the first cloud's points. -/
def rowArr (u v : Cloud) : S32x2048.Idx → EReal := fun i => rowSq u v (i 0) (i 1)

/-- What output array 5 ends holding: per row tile, the partial nearest squared distances of the second cloud's points. -/
def colArr (u v : Cloud) : S16x32x2048.Idx → EReal := fun i => colTile u v (i 0) (i 1) (i 2)

/-! ## Output 4 -/

theorem mem_blk4 (t : Fin cfg0.N) (i : S32x2048.Idx) :
    i ∈ ((cfg0.win 4).blk t).view.set ↔ ∀ a : Fin 2, win0_4.index t a * S32x128.size a ≤ (i a).val ∧ (i a).val < win0_4.index t a * S32x128.size a + S32x128.size a := by
  show i ∈ ((View.whole main_v10_0).slice (win0_4.rect t)).set ↔ _
  rw [View.set_slice_whole, Rect.mem_set_unit]
  exact Iff.rfl

/-- What a last-lane-tile point writes back is its block of `rowArr`. -/
theorem flushed4_eq (c : Dev nD) (t : Fin cfg0.N) (hf : (cfg0.win 4).flush t = true) :
    (dats (F := Ideal) m 0 c).flushed 4 t = ((cfg0.win 4).blk t).view.read (Elt Ideal) (rowArr (cloudU m c) (cloudV m c)) := by
  have h1 : t.val % 4 = 3 := (flush0_4 t).mp hf
  have hN := t_lt t
  obtain ⟨-, -, -, -, -, -, -, -, -, -, e0, e1, -⟩ := idx_facts t
  show (cfg0.win 4).cut (grid0.coords t) ((dats m 0 c).after 4 t) = _
  rw [after0_4]
  refine funext fun (y : S32x128.Idx) => ?_
  obtain ⟨b, r, rfl⟩ : ∃ (b : Fin 32) (r : Fin 128), y = ix2 b r := ⟨y 0, y 1, eq_ix2 y⟩
  show ((outsAt0 (F := Ideal) m c t.val t.isLt).1 : Vec Ideal S32x128 .f32) (ix2 b r)
    = rowArr (cloudU m c) (cloudV m c) (((cfg0.win 4).blk t).view.emb (ix2 b r))
  rw [out4_at m c t h1 b r]
  rw [show ((cfg0.win 4).blk t).view.emb (ix2 b r) = ix2 b (⟨128 * (t.val / 4) + r.val, by omega⟩ : Fin 2048) from by
    funext a; apply Fin.ext
    match a with
    | ⟨0, _⟩ => show win0_4.index t (0 : Fin 2) * 32 + 1 * b.val = b.val; omega
    | ⟨1, _⟩ => show win0_4.index t (1 : Fin 2) * 128 + 1 * r.val = 128 * (t.val / 4) + r.val; omega]
  rfl

/-- Every index of array 4 lies in the block of the last-lane-tile point of its row tile. -/
theorem cover4 (i : S32x2048.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hNN : cfg0.N = 64 := N_0
  have ht : 4 * ((i 1).val / 128) + 3 < cfg0.N := by omega
  obtain ⟨-, -, -, -, -, -, -, -, -, -, e0, e1, -⟩ := idx_facts ⟨4 * ((i 1).val / 128) + 3, ht⟩
  have e1' : win0_4.index ⟨4 * ((i 1).val / 128) + 3, ht⟩ (1 : Fin 2) = (4 * ((i 1).val / 128) + 3) / 4 := e1
  refine ⟨⟨4 * ((i 1).val / 128) + 3, ht⟩, (flush0_4 _).mpr (by show (4 * ((i 1).val / 128) + 3) % 4 = 3; omega), ?_⟩
  rw [mem_blk4]
  intro a
  match a with
  | ⟨0, _⟩ => show win0_4.index _ (0 : Fin 2) * 32 ≤ (i 0).val ∧ (i 0).val < win0_4.index _ (0 : Fin 2) * 32 + 32; omega
  | ⟨1, _⟩ => show win0_4.index _ (1 : Fin 2) * 128 ≤ (i 1).val ∧ (i 1).val < win0_4.index _ (1 : Fin 2) * 128 + 128; omega

/-- Array 4 after the run. -/
theorem final4 (c : Dev nD) : (dats (F := Ideal) m 0 c).arrAt 4 cfg0.N = rowArr (cloudU m c) (cloudV m c) :=
  (dats (F := Ideal) m 0 c).arrAt_eq_of_cover 4 (rowArr (cloudU m c) (cloudV m c)) (fun t hf => flushed4_eq m c t hf) cover4

/-! ## Output 5 -/

theorem mem_blk5 (t : Fin cfg0.N) (i : S16x32x2048.Idx) :
    i ∈ ((cfg0.win 5).blk t).view.set ↔ ∀ a : Fin 3, win0_5.index t a * S1x32x512.size a ≤ (i a).val ∧ (i a).val < win0_5.index t a * S1x32x512.size a + S1x32x512.size a := by
  show i ∈ ((View.whole main_v10_1).slice (win0_5.rect t)).set ↔ _
  rw [View.set_slice_whole, Rect.mem_set_unit]
  exact Iff.rfl

/-- What any point writes back is its block of `colArr`. -/
theorem flushed5_eq (c : Dev nD) (t : Fin cfg0.N) :
    (dats (F := Ideal) m 0 c).flushed 5 t = ((cfg0.win 5).blk t).view.read (Elt Ideal) (colArr (cloudU m c) (cloudV m c)) := by
  have hN := t_lt t
  obtain ⟨-, -, -, -, -, -, -, -, -, -, -, -, e0, e1, e2⟩ := idx_facts t
  show (cfg0.win 5).cut (grid0.coords t) ((dats m 0 c).after 5 t) = _
  rw [after0_5]
  refine funext fun (y : S1x32x512.Idx) => ?_
  obtain ⟨z, b, l, rfl⟩ : ∃ (z : Fin 1) (b : Fin 32) (l : Fin 512), y = ix3 z b l := ⟨y 0, y 1, y 2, eq_ix3 y⟩
  show ((outsAt0 (F := Ideal) m c t.val t.isLt).2.1 : Vec Ideal S1x32x512 .f32) (ix3 z b l)
    = colArr (cloudU m c) (cloudV m c) (((cfg0.win 5).blk t).view.emb (ix3 z b l))
  rw [out5_at m c t z b l]
  rw [show ((cfg0.win 5).blk t).view.emb (ix3 z b l)
      = ix3 (⟨t.val / 4, by omega⟩ : Fin 16) b (⟨512 * (t.val % 4) + l.val, by omega⟩ : Fin 2048) from by
    have hz : z.val = 0 := by omega
    funext a; apply Fin.ext
    match a with
    | ⟨0, _⟩ => show win0_5.index t (0 : Fin 3) * 1 + 1 * z.val = t.val / 4; omega
    | ⟨1, _⟩ => show win0_5.index t (1 : Fin 3) * 32 + 1 * b.val = b.val; omega
    | ⟨2, _⟩ => show win0_5.index t (2 : Fin 3) * 512 + 1 * l.val = 512 * (t.val % 4) + l.val; omega]
  rfl

/-- Every index of array 5 lies in the block of the point of its row tile and lane tile. -/
theorem cover5 (i : S16x32x2048.Idx) : ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 2048 := (i 2).isLt
  have hNN : cfg0.N = 64 := N_0
  have ht : 4 * (i 0).val + (i 2).val / 512 < cfg0.N := by omega
  obtain ⟨-, -, -, -, -, -, -, -, -, -, -, -, e0, e1, e2⟩ := idx_facts ⟨4 * (i 0).val + (i 2).val / 512, ht⟩
  have e0' : win0_5.index ⟨4 * (i 0).val + (i 2).val / 512, ht⟩ (0 : Fin 3) = (4 * (i 0).val + (i 2).val / 512) / 4 := e0
  have e2' : win0_5.index ⟨4 * (i 0).val + (i 2).val / 512, ht⟩ (2 : Fin 3) = (4 * (i 0).val + (i 2).val / 512) % 4 := e2
  refine ⟨⟨4 * (i 0).val + (i 2).val / 512, ht⟩, flush0_5 _, ?_⟩
  rw [mem_blk5]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 32 ≤ (i 1).val ∧ (i 1).val < win0_5.index _ (1 : Fin 3) * 32 + 32; omega
  | ⟨2, _⟩ => show win0_5.index _ (2 : Fin 3) * 512 ≤ (i 2).val ∧ (i 2).val < win0_5.index _ (2 : Fin 3) * 512 + 512; omega

/-- Array 5 after the run. -/
theorem final5 (c : Dev nD) : (dats (F := Ideal) m 0 c).arrAt 5 cfg0.N = colArr (cloudU m c) (cloudV m c) :=
  (dats (F := Ideal) m 0 c).arrAt_eq_of_cover 5 (colArr (cloudU m c) (cloudV m c)) (fun t _ => flushed5_eq m c t) cover5

end Cert.KernelIdeal.Arrays

end
-- ==== Proof.RefDist.lean ====
/-
  The reference's two arrays of nearest distances, read at an index.

  The reference forms, for every batch b and every pair (n, m), the difference of point n of the first cloud
  and point m of the second, coordinate by coordinate, squares it, sums the two squares from zero and takes
  the root: entry (b, n, m) of a [32, 2048, 2048] array is the root of the squared distance. Its minimum from
  +∞ over m (the last axis) is the nearest distance from point n of the first cloud to the second cloud; its
  minimum from +∞ over n (the middle axis) is the nearest distance from point m of the second cloud to the
  first. A minimum reduction over one axis is, at a kept index, the fold of min over that axis's coordinates,
  the kept index with the coordinate inserted at the reduced axis.
-/
import proofs.«118698_j4939212390980_2_alg».proof.Proof.Gen.ReferenceIdeal.Read
import proofs.«118698_j4939212390980_2_alg».proof.Proof.Nearest
import proofs.«118698_j4939212390980_2_alg».proof.Proof.LibMinDist
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Nearest

/-- Coordinate k of the difference of point n of the first cloud and point m of the second, in batch b:
    the two broadcasts read the clouds at (b, n, k) and at (b, m, k). -/
theorem ref_diff (x0 x1 : FVec Ideal S32x2048x2 .f32) (b : Fin 32) (n m : Fin 2048) (k : Fin 2) :
    val_main_v4 (F := Ideal) x0 x1 (idx_main_v6 (ix3 b n m) k) = x0 (ix3 b n k) - x1 (ix3 b m k) := by
  have e0 : idx_main_v0 (idx_main_v2 (idx_main_v6 (ix3 b n m) k)) = ix3 b n k :=
    funext fun a => Fin.ext (by match a with | ⟨0, _⟩ => rfl | ⟨1, _⟩ => rfl | ⟨2, _⟩ => rfl)
  have e1 : idx_main_v1 (idx_main_v3 (idx_main_v6 (ix3 b n m) k)) = ix3 b m k :=
    funext fun a => Fin.ext (by match a with | ⟨0, _⟩ => rfl | ⟨1, _⟩ => rfl | ⟨2, _⟩ => rfl)
  rw [val_main_v4_apply, val_main_v2_apply, val_main_v3_apply, val_main_v0_apply, val_main_v1_apply,
    Ideal.subf_def, e0, e1]

/-- Entry (b, n, m) of the array of pairwise distances is the root of the squared distance. -/
theorem ref_pair (x0 x1 : FVec Ideal S32x2048x2 .f32) (b : Fin 32) (n m : Fin 2048) :
    val_main_v7 (F := Ideal) x0 x1 (ix3 b n m) = Ideal.sqrt (sqd x0 x1 b n m) := by
  rw [val_main_v7_apply, Ideal.hostUnary_sqrt_def, val_main_v6_apply, Fin.sum_univ_two,
    val_main_v5_apply, val_main_v5_apply, Ideal.mulf_def, Ideal.mulf_def, ref_diff, ref_diff,
    val_main_cst_apply, Ideal.ofBits_def, Ideal.ofBits_zero_f32, zero_add]
  rfl

/-- A kept index (b, n) with the coordinate k inserted at the last axis is (b, n, k). -/
theorem lift_last (h : S32x2048x2048.Reduces [2] S32x2048) (b : Fin 32) (n : Fin 2048)
    (k : Fin (S32x2048x2048.size 2)) : h.lift (ix2 b n) k = ix3 b n (⟨k.val, k.isLt⟩ : Fin 2048) := by
  funext c; apply Fin.ext
  match c with | ⟨0, _⟩ => rfl | ⟨1, _⟩ => rfl | ⟨2, _⟩ => rfl

/-- A kept index (b, m) with the coordinate k inserted at the middle axis is (b, k, m). -/
theorem lift_mid (h : S32x2048x2048.Reduces [1] S32x2048) (b : Fin 32) (m : Fin 2048)
    (k : Fin (S32x2048x2048.size 1)) : h.lift (ix2 b m) k = ix3 b (⟨k.val, k.isLt⟩ : Fin 2048) m := by
  funext c; apply Fin.ext
  match c with | ⟨0, _⟩ => rfl | ⟨1, _⟩ => rfl | ⟨2, _⟩ => rfl

/-- The minimum over the last axis: the nearest distance from point n of the first cloud to the second. -/
theorem ref_row (x0 x1 : FVec Ideal S32x2048x2 .f32) (b : Fin 32) (n : Fin 2048) :
    val_main_v8 (F := Ideal) x0 x1 (ix2 b n) = rowDist x0 x1 b n := by
  have hr : S32x2048x2048.Reduces [2] S32x2048 := by decide
  unfold val_main_v8
  refine (Host.reduce_eq_fold_single (α := Ideal .f32) (FloatOps.minimumf (F := Ideal) (φ := .f32))
    (val_main_v7 (F := Ideal) x0 x1) (val_main_cst_0 (F := Ideal)) _ hr _ (ix2 b n)).trans ?_
  unfold rowDist
  show (Finset.univ : Finset (Fin 2048)).fold min (Ideal.ofBits .f32 0x7F800000#32) _ = _
  rw [MinDist.ofBits_inf]
  refine Finset.fold_congr fun m _ => ?_
  show val_main_v7 (F := Ideal) x0 x1 (hr.lift (ix2 b n) m) = _
  rw [lift_last hr b n m]
  exact ref_pair x0 x1 b n m

/-- The minimum over the middle axis: the nearest distance from point m of the second cloud to the first. -/
theorem ref_col (x0 x1 : FVec Ideal S32x2048x2 .f32) (b : Fin 32) (m : Fin 2048) :
    val_main_v9 (F := Ideal) x0 x1 (ix2 b m) = colDist x0 x1 b m := by
  have hr : S32x2048x2048.Reduces [1] S32x2048 := by decide
  unfold val_main_v9
  refine (Host.reduce_eq_fold_single (α := Ideal .f32) (FloatOps.minimumf (F := Ideal) (φ := .f32))
    (val_main_v7 (F := Ideal) x0 x1) (val_main_cst_1 (F := Ideal)) _ hr _ (ix2 b m)).trans ?_
  unfold colDist
  show (Finset.univ : Finset (Fin 2048)).fold min (Ideal.ofBits .f32 0x7F800000#32) _ = _
  rw [MinDist.ofBits_inf]
  refine Finset.fold_congr fun n _ => ?_
  show val_main_v7 (F := Ideal) x0 x1 (hr.lift (ix2 b m) n) = _
  rw [lift_mid hr b m n]
  exact ref_pair x0 x1 b n m

end Cert.ReferenceIdeal.RefValue

end
-- ==== Proof.KernelTail.lean ====
/-
  The host's closing lines, as one function of the two arrays the region leaves.

  After the region the host takes the root of the nearest squared distances of the first cloud's points
  (array [32, 2048]); folds the 16 partial column minima (array [16, 32, 2048]) into the nearest squared
  distances of the second cloud's points and takes their root; averages each over its 2048 points, halves the
  sum of the two averages, and averages the result over the 32 batches.  The reference closes with the same
  lines over its two arrays of nearest distances; so the two results agree once the rooted arrays do.
-/
import proofs.«118698_j4939212390980_2_alg».proof.Proof.Gen.KernelIdeal
import proofs.«118698_j4939212390980_2_alg».proof.Proof.RefDist
import proofs.«118698_j4939212390980_2_alg».proof.Proof.Nearest

noncomputable section

namespace Cert.KernelIdeal.HostTail

open Idealize.ShloMosaic Idealize.ShloMosaic.ValueIdx Cert.KernelIdeal Cert.KernelIdeal.Facts₀ Cert.Nearest

/-- The mean over batches of the halved sum of the two per-batch means of nearest distances. -/
def meanOfMeans (d4 d5 : FVec Ideal S32x2048 .f32) : FVec Ideal S_ .f32 :=
  Host.divf (F := Ideal)
    (Host.reduceAdd (F := Ideal)
      (Host.divf (F := Ideal)
        (addf (F := Ideal)
          (Host.divf (F := Ideal)
            (Host.reduceAdd (F := Ideal) d4 (constant (F := Ideal) S_ .f32 0x00000000#32) reducesTo_S32x2048_S32_d1 h_S_)
            (broadcastInDim S32 ![] bcast_S_S32 (constant (F := Ideal) S_ .f32 0x45000000#32)))
          (Host.divf (F := Ideal)
            (Host.reduceAdd (F := Ideal) d5 (constant (F := Ideal) S_ .f32 0x00000000#32) reducesTo_S32x2048_S32_d1 h_S_)
            (broadcastInDim S32 ![] bcast_S_S32 (constant (F := Ideal) S_ .f32 0x45000000#32))))
        (broadcastInDim S32 ![] bcast_S_S32 (constant (F := Ideal) S_ .f32 0x40000000#32)))
      (constant (F := Ideal) S_ .f32 0x00000000#32) reducesTo_S32_S_d0 h_S_)
    (constant (F := Ideal) S_ .f32 0x42000000#32)

/-- The host's closing lines over the region's two output arrays. -/
def tail (a4 : FVec Ideal S32x2048 .f32) (a5 : FVec Ideal S16x32x2048 .f32) : FVec Ideal S_ .f32 :=
  meanOfMeans (Host.sqrt (F := Ideal) a4)
    (Host.sqrt (F := Ideal)
      (Host.reduce (FloatOps.minimumf (F := Ideal) (φ := .f32)) a5 (constant (F := Ideal) S_ .f32 0x7F800000#32)
        reducesTo_S16x32x2048_S32x2048_d0 h_S_))

end Cert.KernelIdeal.HostTail

end
-- ==== Proof.KernelRun.lean ====
/-
  The kernel's run with its result named.

  The generated frame run ends with every array of the region at what the proof data compute and every other
  buffer as the host's closing lines leave it.  Those lines read the two output arrays; with the arrays at the
  nearest squared distances (KernelArrays) the result buffer holds the closing lines' value of them, and no
  line before or after the region writes either cloud.
-/
import proofs.«118698_j4939212390980_2_alg».proof.Proof.Gen.KernelIdeal.Frame
import proofs.«118698_j4939212390980_2_alg».proof.Proof.KernelArrays
import proofs.«118698_j4939212390980_2_alg».proof.Proof.KernelTail
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.ShloMosaic.ValueIdx
open Idealize.SL Idealize.SL.Sem
open Cert.KernelIdeal Cert.KernelIdeal.Gen Cert.KernelIdeal.Inputs Cert.KernelIdeal.Arrays Cert.KernelIdeal.HostTail Cert.Nearest

variable (m : (ℓ : Loc nD τ sig) → Buf (Elt Ideal) ℓ) (ρ : Dev nD → PrngReg)

/-- The host's closing lines run over the arrays the region left: the result buffer holds `tail` of them. -/
theorem tail_read (c : Dev nD) :
    Pipeline.afterTail₀ cfgs (dats (F := Ideal) m) 0 (V0 m) [hostOps1] c main_v24
      = tail (rowArr (cloudU m c) (cloudV m c)) (colArr (cloudU m c) (cloudV m c)) := by
  unfold Pipeline.afterTail₀
  show StableHlo.after hostOps1 _ (Proc.devRef .tc main_v24) = _
  after_results
  have e4 : Pipeline.withArrays (cfgs 0).spec c (V0 m c) (fun w => (dats (F := Ideal) m 0 c).arrAt w (cfgs 0).N)
      (Proc.devRef .tc main_v10_0) = rowArr (cloudU m c) (cloudV m c) :=
    (Pipeline.withArrays_arr spec0 launch0.win.arr_inj c _ _ 4).trans (final4 m c)
  have e5 : Pipeline.withArrays (cfgs 0).spec c (V0 m c) (fun w => (dats (F := Ideal) m 0 c).arrAt w (cfgs 0).N)
      (Proc.devRef .tc main_v10_1) = colArr (cloudU m c) (cloudV m c) :=
    (Pipeline.withArrays_arr spec0 launch0.win.arr_inj c _ _ 5).trans (final5 m c)
  rw [e4, e5]
  rfl

/-- The kernel's run at the ideal values: every weakly fair execution ends with the result at `tail` of the two
    arrays of nearest squared distances, and the clouds unchanged. -/
theorem run : θ_run defs (onTc (τ := τ) (main (F := Ideal))) ⟨m, fun _ => 0, ρ⟩ (fun r => ∀ c : Dev nD,
      r.2.mem ((c.tc : Thread nD τ).loc main_v24) = tail (rowArr (cloudU m c) (cloudV m c)) (colArr (cloudU m c) (cloudV m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v24 (Pipeline.mem_restRefs_of main_v24 (by decide) (by decide))).trans (tail_read m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.KernelIdeal.RunValue

end
-- ==== Proof.TailAgree.lean ====
/-
  The host's closing lines over the region's two arrays give the reference's result.

  The region leaves the nearest squared distance of every point of the first cloud (array [32, 2048]) and, for
  every point of the second cloud, 16 partial minima, each over a block of 128 points of the first cloud (array
  [16, 32, 2048]). The root of the first array is the reference's array of nearest distances of the first
  cloud's points, because the root of a minimum from +∞ is the minimum of the roots. The minimum from +∞ of the
  16 partial minima is the minimum over all 2048 points, so its root is the reference's array of nearest
  distances of the second cloud's points. The averaging lines that follow are the same operations with the
  same literals in both programs, so the results are equal.
-/
import proofs.«118698_j4939212390980_2_alg».proof.Proof.KernelTail
import proofs.«118698_j4939212390980_2_alg».proof.Proof.Gen.ReferenceIdeal.Read

noncomputable section

namespace Cert.KernelIdeal.TailAgree

open Idealize.ShloMosaic Idealize.ShloMosaic.ValueIdx Cert.Nearest Cert.KernelIdeal.HostTail

/-- The root of the nearest squared distances of the first cloud's points is the reference's array of their
    nearest distances. -/
theorem sqrt_rows (u v : Cloud) (a4 : FVec Ideal Cert.KernelIdeal.S32x2048 .f32)
    (h4 : ∀ (b : Fin 32) (n : Fin 2048), a4 (ix2 b n) = rowSq u v b n) :
    Host.sqrt (F := Ideal) a4 = Cert.ReferenceIdeal.Read.val_main_v8 (F := Ideal) u v := by
  funext j
  obtain ⟨b, n, rfl⟩ : ∃ (b : Fin 32) (n : Fin 2048), j = ix2 b n := ⟨j 0, j 1, eq_ix2 j⟩
  rw [Cert.ReferenceIdeal.RefValue.ref_row]
  show FloatOps.hostUnary .sqrt (a4 (ix2 b n)) = _
  rw [Ideal.hostUnary_sqrt_def, h4, sqrt_rowSq]

/-- A kept index (b, k) with the coordinate i inserted at the first axis is (i, b, k). -/
theorem lift_first (h : Cert.KernelIdeal.S16x32x2048.Reduces [0] Cert.KernelIdeal.S32x2048) (b : Fin 32) (k : Fin 2048)
    (i : Fin (Cert.KernelIdeal.S16x32x2048.size 0)) : h.lift (ix2 b k) i = ix3 (⟨i.val, i.isLt⟩ : Fin 16) b k := by
  funext c; apply Fin.ext
  match c with | ⟨0, _⟩ => rfl | ⟨1, _⟩ => rfl | ⟨2, _⟩ => rfl

/-- The root of an array, read at an index, is the root of the entry. -/
theorem hostSqrt_apply {s : Shape} (x : FVec Ideal s .f32) (j : s.Idx) :
    Host.sqrt (F := Ideal) x j = Ideal.sqrt (x j) := rfl

/-- The root of the minimum from +∞ of the 16 partial minima is the reference's array of nearest distances of
    the second cloud's points: the minimum of the 16 block minima is the minimum over all 2048 points. -/
theorem sqrt_cols (u v : Cloud) (a5 : FVec Ideal Cert.KernelIdeal.S16x32x2048 .f32)
    (h5 : ∀ (i : Fin 16) (b : Fin 32) (k : Fin 2048), a5 (ix3 i b k)
            = (Finset.univ : Finset (Fin 128)).fold min ⊤ (fun r => sqd u v b ⟨128 * i.val + r.val, by omega⟩ k))
    (h' : Cert.KernelIdeal.S16x32x2048.ReducesTo [0] Cert.KernelIdeal.S32x2048) (hu : 0 < Cert.KernelIdeal.S_.numel) :
    Host.sqrt (F := Ideal)
        (Host.reduce (FloatOps.minimumf (F := Ideal) (φ := .f32)) a5 (constant (F := Ideal) Cert.KernelIdeal.S_ .f32 0x7F800000#32) h' hu)
      = Cert.ReferenceIdeal.Read.val_main_v9 (F := Ideal) u v := by
  have hr : Cert.KernelIdeal.S16x32x2048.Reduces [0] Cert.KernelIdeal.S32x2048 := by decide
  funext j
  obtain ⟨b, k, rfl⟩ : ∃ (b : Fin 32) (k : Fin 2048), j = ix2 b k := ⟨j 0, j 1, eq_ix2 j⟩
  rw [Cert.ReferenceIdeal.RefValue.ref_col, ← sqrt_colSq, ← colSq_blocks, hostSqrt_apply]
  refine congrArg Ideal.sqrt ?_
  refine (Host.reduce_eq_fold_single (α := Ideal .f32) (FloatOps.minimumf (F := Ideal) (φ := .f32))
    a5 (constant (F := Ideal) Cert.KernelIdeal.S_ .f32 0x7F800000#32) h' hr hu (ix2 b k)).trans ?_
  show (Finset.univ : Finset (Fin 16)).fold min (Ideal.ofBits .f32 0x7F800000#32) _ = _
  rw [MinDist.ofBits_inf]
  refine Finset.fold_congr fun i _ => ?_
  show a5 (hr.lift (ix2 b k) i) = _
  rw [lift_first hr b k i]
  exact h5 ⟨i.val, i.isLt⟩ b k

/-- The averaging lines over the reference's two arrays of nearest distances are the reference's closing
    lines: the same operations with the same literals. -/
theorem meanOfMeans_ref (u v : Cloud) :
    meanOfMeans (Cert.ReferenceIdeal.Read.val_main_v8 (F := Ideal) u v) (Cert.ReferenceIdeal.Read.val_main_v9 (F := Ideal) u v)
      = Cert.ReferenceIdeal.Read.val_main_v20 (F := Ideal) u v := rfl

/-- The host's closing lines over the region's two arrays give the reference's result. -/
theorem tail_eq_ref (u v : Cloud) (a4 : FVec Ideal Cert.KernelIdeal.S32x2048 .f32) (a5 : FVec Ideal Cert.KernelIdeal.S16x32x2048 .f32)
    (h4 : ∀ (b : Fin 32) (n : Fin 2048), a4 (ix2 b n) = rowSq u v b n)
    (h5 : ∀ (i : Fin 16) (b : Fin 32) (k : Fin 2048), a5 (ix3 i b k)
            = (Finset.univ : Finset (Fin 128)).fold min ⊤ (fun r => sqd u v b ⟨128 * i.val + r.val, by omega⟩ k)) :
    tail a4 a5 = Cert.ReferenceIdeal.Read.val_main_v20 (F := Ideal) u v := by
  unfold tail
  rw [sqrt_rows u v a4 h4, sqrt_cols u v a5 h5]
  exact meanOfMeans_ref u v

end Cert.KernelIdeal.TailAgree

end
-- ==== Proof.lean ====
/- The proof of `Cert.Claim`: a kernel that computes the mean closest-point distance between two clouds of 2048
   planar points in each of 32 batches, against its plain reference.

   Both programs end with the same lines: the mean over a cloud's points of the nearest distance to the other
   cloud, for each cloud; half the sum of the two means; the mean of that over the batches.  They differ in how
   the nearest distances are reached.  The reference forms all 2048 × 2048 distances per batch — the root of
   the sum, from zero, of the two squared coordinate differences — and takes minima of the roots.  The kernel
   never takes a root inside the region: on a 16 × 4 grid of tiles (128 points of the first cloud against 512 of
   the second) it forms the squared distances of a tile once, folds their minima over lanes into a running
   minimum carried in a scratch buffer along each row tile, writes the tile's minima over rows as a partial
   result, and the host afterwards folds the 16 partials and takes the root of the two arrays of minima.  On the
   extended reals the root is monotone and fixes +∞, so the root of a minimum is the minimum of the roots; a
   minimum over 2048 points is the minimum over its blocks in any grouping; and `0 + x = x`.  Hence the two
   results are equal for ANY contents of the clouds, and the precondition is not used.

   The modules: Nearest (the distances and the laws above), RefDist (the reference's two arrays read at an
   index), PayloadRead and TileValues (the kernel body's stored values), KernelPieces (what each control case
   leaves), KernelInputs (the input windows), KernelInvariant (the buffers after each grid point), KernelArrays
   (the two arrays the region leaves), KernelTail and TailAgree (the closing lines), KernelRun (the kernel's
   run with its result named).  The three frames are the generated ones; the ideal pass rewrote nothing, so
   `preserves` has nothing to state. -/
import proofs.«118698_j4939212390980_2_alg».proof.Defs
import proofs.«118698_j4939212390980_2_alg».proof.Proof.Gen.Kernel
import proofs.«118698_j4939212390980_2_alg».proof.Proof.Gen.Kernel.Frame
import proofs.«118698_j4939212390980_2_alg».proof.Proof.Gen.KernelIdeal
import proofs.«118698_j4939212390980_2_alg».proof.Proof.Gen.KernelIdeal.Frame
import proofs.«118698_j4939212390980_2_alg».proof.Proof.Gen.ReferenceIdeal
import proofs.«118698_j4939212390980_2_alg».proof.Proof.Gen.ReferenceIdeal.Run
import proofs.«118698_j4939212390980_2_alg».proof.Proof.Gen.ReferenceIdeal.Read
import proofs.«118698_j4939212390980_2_alg».proof.Proof.Gen.Pre_finite_inputs
import proofs.«118698_j4939212390980_2_alg».proof.Proof.KernelRun
import proofs.«118698_j4939212390980_2_alg».proof.Proof.TailAgree
import Idealize.ShloMosaic.Adequacy
import Idealize.ShloMosaic.Init

noncomputable section

namespace Cert.Proof

open Idealize.ShloMosaic Idealize.SL.Sem

/-- The kernel as printed runs and leaves the clouds unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves the clouds unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the clouds both programs end with the same mean closest-point distance: the
    kernel's closing lines over its arrays of nearest squared distances against the reference's over its arrays
    of nearest distances. -/
theorem algebraic : Cert.algebraic_KernelIdeal_ReferenceIdeal := by
  intro m ρ m' ρ' _ hagree
  refine ⟨fun c => Cert.KernelIdeal.HostTail.tail
      (Cert.KernelIdeal.Arrays.rowArr (Cert.KernelIdeal.Inputs.cloudU m c) (Cert.KernelIdeal.Inputs.cloudV m c))
      (Cert.KernelIdeal.Arrays.colArr (Cert.KernelIdeal.Inputs.cloudU m c) (Cert.KernelIdeal.Inputs.cloudV m c)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq]
  exact (Cert.KernelIdeal.TailAgree.tail_eq_ref (Cert.KernelIdeal.Inputs.cloudU m c) (Cert.KernelIdeal.Inputs.cloudV m c) _ _
    (fun _ _ => rfl) (fun _ _ _ => rfl)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
